-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32768x2 : Shape := ⟨3, ![32, 32768, 2]⟩
abbrev S32x50307 : Shape := ⟨2, ![32, 50307]⟩
abbrev S_ : Shape := ⟨0, ![]⟩

class Facts : Prop where
  bcast_S_S32x32768x2 : S_.BroadcastsInDim S32x32768x2 (![] : Fin 0 → Fin S32x32768x2.rank)
  reducesTo_S32x32768x2_S_d0_1_2 : S32x32768x2.ReducesTo [0, 1, 2] S_
  h_S_ : 0 < S_.numel
  bcast_S_S32x50307 : S_.BroadcastsInDim S32x50307 (![] : Fin 0 → Fin S32x50307.rank)
  reducesTo_S32x50307_S_d0_1 : S32x50307.ReducesTo [0, 1] S_

variable [Facts]

def fn {F : FTy → Type} [FloatOps F] (main_arg0 : FVec F S32x32768x2 .f32) (main_arg1 : FVec F S32x50307 .f32) : IVec S_ 1 :=
  let main_v0 : FVec F S32x32768x2 .f32 := Host.absf main_arg0
  let main_cst : FVec F S_ .f32 := constant S_ .f32 0x7F800000#32
  let main_v1 : FVec F S32x32768x2 .f32 := broadcastInDim S32x32768x2 ![] bcast_S_S32x32768x2 main_cst
  let main_v2 : IVec S32x32768x2 1 := cmpf .olt main_v0 main_v1
  let main_c : IVec S_ 1 := constantI S_ 1 1#1
  let main_v3 : IVec S_ 1 := (fun x v => Host.reduce IntOp.andi x v reducesTo_S32x32768x2_S_d0_1_2 h_S_) main_v2 main_c
  let main_v4 : FVec F S32x50307 .f32 := Host.absf main_arg1
  let main_cst_0 : FVec F S_ .f32 := constant S_ .f32 0x7F800000#32
  let main_v5 : FVec F S32x50307 .f32 := broadcastInDim S32x50307 ![] bcast_S_S32x50307 main_cst_0
  let main_v6 : IVec S32x50307 1 := cmpf .olt main_v4 main_v5
  let main_c_1 : IVec S_ 1 := constantI S_ 1 1#1
  let main_v7 : IVec S_ 1 := (fun x v => Host.reduce IntOp.andi x v reducesTo_S32x50307_S_d0_1 h_S_) main_v6 main_c_1
  let main_v8 : IVec S_ 1 := andi main_v3 main_v7
  main_v8
-- ==== Kernel.lean ====
abbrev S32x32768x2 : Shape := ⟨3, ![32, 32768, 2]⟩
abbrev S32x50307 : Shape := ⟨2, ![32, 50307]⟩
abbrev S32x256 : Shape := ⟨2, ![32, 256]⟩
abbrev S32x128x2 : Shape := ⟨3, ![32, 128, 2]⟩
abbrev S32x128 : Shape := ⟨2, ![32, 128]⟩
abbrev S32x1x128 : Shape := ⟨3, ![32, 1, 128]⟩
abbrev S32x16384 : Shape := ⟨2, ![32, 16384]⟩
abbrev S32x128x128 : Shape := ⟨3, ![32, 128, 128]⟩
abbrev S32x384 : Shape := ⟨2, ![32, 384]⟩
abbrev S32x3x128 : Shape := ⟨3, ![32, 3, 128]⟩
abbrev S32x3 : Shape := ⟨2, ![32, 3]⟩
abbrev S32x1x3 : Shape := ⟨3, ![32, 1, 3]⟩
abbrev S32x32768x3 : Shape := ⟨3, ![32, 32768, 3]⟩
abbrev S1x16384x2 : Shape := ⟨3, ![1, 16384, 2]⟩
abbrev S1x128x2 : Shape := ⟨3, ![1, 128, 2]⟩
abbrev S1x1x128 : Shape := ⟨3, ![1, 1, 128]⟩
abbrev S1x128x128 : Shape := ⟨3, ![1, 128, 128]⟩
abbrev S1x3x128 : Shape := ⟨3, ![1, 3, 128]⟩
abbrev S1x1x3 : Shape := ⟨3, ![1, 1, 3]⟩
abbrev S1x16384x3 : Shape := ⟨3, ![1, 16384, 3]⟩
abbrev S16384x2 : Shape := ⟨2, ![16384, 2]⟩
abbrev S128x2 : Shape := ⟨2, ![128, 2]⟩
abbrev S1x128 : Shape := ⟨2, ![1, 128]⟩
abbrev S128x1 : Shape := ⟨2, ![128, 1]⟩
abbrev S16384x1 : Shape := ⟨2, ![16384, 1]⟩
abbrev S16384x128 : Shape := ⟨2, ![16384, 128]⟩
abbrev S128x128 : Shape := ⟨2, ![128, 128]⟩
abbrev S3x128 : Shape := ⟨2, ![3, 128]⟩
abbrev S1x3 : Shape := ⟨2, ![1, 3]⟩
abbrev S128x3 : Shape := ⟨2, ![128, 3]⟩
abbrev S16384x3 : Shape := ⟨2, ![16384, 3]⟩

abbrev nBuf : Space → Nat
  | .hbm => 23
  | .vmem => 24
  | .smem => 0
  | _ => 0

abbrev bufTy : (tb : Table) → Fin (tcTables nBuf tb) → BufTy
  | .hbm, ⟨0, _⟩ => ⟨S32x32768x2, .f32⟩
  | .hbm, ⟨1, _⟩ => ⟨S32x50307, .f32⟩
  | .hbm, ⟨2, _⟩ => ⟨S32x256, .f32⟩
  | .hbm, ⟨3, _⟩ => ⟨S32x128x2, .f32⟩
  | .hbm, ⟨4, _⟩ => ⟨S32x128, .f32⟩
  | .hbm, ⟨5, _⟩ => ⟨S32x1x128, .f32⟩
  | .hbm, ⟨6, _⟩ => ⟨S32x16384, .f32⟩
  | .hbm, ⟨7, _⟩ => ⟨S32x128x128, .f32⟩
  | .hbm, ⟨8, _⟩ => ⟨S32x128, .f32⟩
  | .hbm, ⟨9, _⟩ => ⟨S32x1x128, .f32⟩
  | .hbm, ⟨10, _⟩ => ⟨S32x16384, .f32⟩
  | .hbm, ⟨11, _⟩ => ⟨S32x128x128, .f32⟩
  | .hbm, ⟨12, _⟩ => ⟨S32x128, .f32⟩
  | .hbm, ⟨13, _⟩ => ⟨S32x1x128, .f32⟩
  | .hbm, ⟨14, _⟩ => ⟨S32x16384, .f32⟩
  | .hbm, ⟨15, _⟩ => ⟨S32x128x128, .f32⟩
  | .hbm, ⟨16, _⟩ => ⟨S32x128, .f32⟩
  | .hbm, ⟨17, _⟩ => ⟨S32x1x128, .f32⟩
  | .hbm, ⟨18, _⟩ => ⟨S32x384, .f32⟩
  | .hbm, ⟨19, _⟩ => ⟨S32x3x128, .f32⟩
  | .hbm, ⟨20, _⟩ => ⟨S32x3, .f32⟩
  | .hbm, ⟨21, _⟩ => ⟨S32x1x3, .f32⟩
  | .hbm, ⟨22, _⟩ => ⟨S32x32768x3, .f32⟩
  | .local _ .vmem, ⟨0, _⟩ => ⟨S1x16384x2, .f32⟩
  | .local _ .vmem, ⟨1, _⟩ => ⟨S1x16384x2, .f32⟩
  | .local _ .vmem, ⟨2, _⟩ => ⟨S1x128x2, .f32⟩
  | .local _ .vmem, ⟨3, _⟩ => ⟨S1x128x2, .f32⟩
  | .local _ .vmem, ⟨4, _⟩ => ⟨S1x1x128, .f32⟩
  | .local _ .vmem, ⟨5, _⟩ => ⟨S1x1x128, .f32⟩
  | .local _ .vmem, ⟨6, _⟩ => ⟨S1x128x128, .f32⟩
  | .local _ .vmem, ⟨7, _⟩ => ⟨S1x128x128, .f32⟩
  | .local _ .vmem, ⟨8, _⟩ => ⟨S1x1x128, .f32⟩
  | .local _ .vmem, ⟨9, _⟩ => ⟨S1x1x128, .f32⟩
  | .local _ .vmem, ⟨10, _⟩ => ⟨S1x128x128, .f32⟩
  | .local _ .vmem, ⟨11, _⟩ => ⟨S1x128x128, .f32⟩
  | .local _ .vmem, ⟨12, _⟩ => ⟨S1x1x128, .f32⟩
  | .local _ .vmem, ⟨13, _⟩ => ⟨S1x1x128, .f32⟩
  | .local _ .vmem, ⟨14, _⟩ => ⟨S1x128x128, .f32⟩
  | .local _ .vmem, ⟨15, _⟩ => ⟨S1x128x128, .f32⟩
  | .local _ .vmem, ⟨16, _⟩ => ⟨S1x1x128, .f32⟩
  | .local _ .vmem, ⟨17, _⟩ => ⟨S1x1x128, .f32⟩
  | .local _ .vmem, ⟨18, _⟩ => ⟨S1x3x128, .f32⟩
  | .local _ .vmem, ⟨19, _⟩ => ⟨S1x3x128, .f32⟩
  | .local _ .vmem, ⟨20, _⟩ => ⟨S1x1x3, .f32⟩
  | .local _ .vmem, ⟨21, _⟩ => ⟨S1x1x3, .f32⟩
  | .local _ .vmem, ⟨22, _⟩ => ⟨S1x16384x3, .f32⟩
  | .local _ .vmem, ⟨23, _⟩ => ⟨S1x16384x3, .f32⟩
  | _, _ => ⟨S32x32768x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16384x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x3x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x16384x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  slices_S32x50307_S32x256_0_0 : S32x50307.Slices ![0, 0] S32x256
  shapeCasts_S32x256_S32x128x2 : S32x256.ShapeCasts S32x128x2
  slices_S32x50307_S32x128_0_256 : S32x50307.Slices ![0, 256] S32x128
  shapeCasts_S32x128_S32x1x128 : S32x128.ShapeCasts S32x1x128
  slices_S32x50307_S32x16384_0_384 : S32x50307.Slices ![0, 384] S32x16384
  shapeCasts_S32x16384_S32x128x128 : S32x16384.ShapeCasts S32x128x128
  slices_S32x50307_S32x128_0_16768 : S32x50307.Slices ![0, 16768] S32x128
  slices_S32x50307_S32x16384_0_16896 : S32x50307.Slices ![0, 16896] S32x16384
  slices_S32x50307_S32x128_0_33280 : S32x50307.Slices ![0, 33280] S32x128
  slices_S32x50307_S32x16384_0_33408 : S32x50307.Slices ![0, 33408] S32x16384
  slices_S32x50307_S32x128_0_49792 : S32x50307.Slices ![0, 49792] S32x128
  slices_S32x50307_S32x384_0_49920 : S32x50307.Slices ![0, 49920] S32x384
  shapeCasts_S32x384_S32x3x128 : S32x384.ShapeCasts S32x3x128
  slices_S32x50307_S32x3_0_50304 : S32x50307.Slices ![0, 50304] S32x3
  shapeCasts_S32x3_S32x1x3 : S32x3.ShapeCasts S32x1x3
  inb_S1x16384x2_S1x16384x2_0_0_0 : ∀ a, (![0, 0, 0] : Fin 3 → Nat) a + S1x16384x2.size a ≤ S1x16384x2.size a
  h_S1x16384x2 : 0 < S1x16384x2.numel
  shapeCasts_S1x16384x2_S16384x2 : S1x16384x2.ShapeCasts S16384x2
  inb_S1x128x2_S1x128x2_0_0_0 : ∀ a, (![0, 0, 0] : Fin 3 → Nat) a + S1x128x2.size a ≤ S1x128x2.size a
  h_S1x128x2 : 0 < S1x128x2.numel
  shapeCasts_S1x128x2_S128x2 : S1x128x2.ShapeCasts S128x2
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  slices_S128x2_o0_0_S128x1 : S128x2.Slices ![0, 0] S128x1
  transposes_S128x1_p1_0_S1x128 : S128x1.Transposes [1, 0] S1x128
  slices_S128x2_o0_1_S128x1 : S128x2.Slices ![0, 1] S128x1
  slices_S16384x2_o0_0_S16384x1 : S16384x2.Slices ![0, 0] S16384x1
  broadcasts_S16384x1_S16384x128 : S16384x1.Broadcasts S16384x128
  broadcasts_S1x128_S16384x128 : S1x128.Broadcasts S16384x128
  slices_S16384x2_o0_1_S16384x1 : S16384x2.Slices ![0, 1] S16384x1
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  bitsLt_bf16_f32 : FTy.bits .bf16 < FTy.bits .f32
  transposes_S128x128_p1_0_S128x128 : S128x128.Transposes [1, 0] S128x128
  inb_S1x3x128_S1x3x128_0_0_0 : ∀ a, (![0, 0, 0] : Fin 3 → Nat) a + S1x3x128.size a ≤ S1x3x128.size a
  h_S1x3x128 : 0 < S1x3x128.numel
  shapeCasts_S1x3x128_S3x128 : S1x3x128.ShapeCasts S3x128
  inb_S1x1x3_S1x1x3_0_0_0 : ∀ a, (![0, 0, 0] : Fin 3 → Nat) a + S1x1x3.size a ≤ S1x1x3.size a
  h_S1x1x3 : 0 < S1x1x3.numel
  shapeCasts_S1x1x3_S1x3 : S1x1x3.ShapeCasts S1x3
  transposes_S3x128_p1_0_S128x3 : S3x128.Transposes [1, 0] S128x3
  broadcasts_S1x3_S16384x3 : S1x3.Broadcasts S16384x3
  inb_S1x16384x3_S1x16384x3_0_0_0 : ∀ a, (![0, 0, 0] : Fin 3 → Nat) a + S1x16384x3.size a ≤ S1x16384x3.size a
  h_S1x16384x3 : 0 < S1x16384x3.numel
  shapeCasts_S1x16384x3_S16384x3 : S1x16384x3.ShapeCasts S16384x3
  shapeCasts_S16384x3_S1x16384x3 : S16384x3.ShapeCasts S1x16384x3
  dot_S16384x128_S128x128_S16384x128_1_0_0_1_n_n_wf : DotDims.WF S16384x128 S128x128 S16384x128 [1] [0] [0] [1] [] []
  dot_S16384x128_S128x3_S16384x3_1_0_0_1_n_n_wf : DotDims.WF S16384x128 S128x3 S16384x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x2.size a ≤ S32x32768x2.size a
  hwx0_0 : ∀ i : grid0.Coords, EltTy.bits .f32 = 32 ∨ (Rect.block (s := S32x32768x2) S1x16384x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x2.size a ≤ S32x128x2.size a
  hwx0_1 : ∀ i : grid0.Coords, EltTy.bits .f32 = 32 ∨ (Rect.block (s := S32x128x2) S1x128x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S32x1x128.size a
  hwx0_2 : ∀ i : grid0.Coords, EltTy.bits .f32 = 32 ∨ (Rect.block (s := S32x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S32x128x128.size a
  hwx0_3 : ∀ i : grid0.Coords, EltTy.bits .f32 = 32 ∨ (Rect.block (s := S32x128x128) S1x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S32x1x128.size a
  hwx0_4 : ∀ i : grid0.Coords, EltTy.bits .f32 = 32 ∨ (Rect.block (s := S32x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x128.size a ≤ S32x128x128.size a
  hwx0_5 : ∀ i : grid0.Coords, EltTy.bits .f32 = 32 ∨ (Rect.block (s := S32x128x128) S1x128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S32x1x128.size a
  hwx0_6 : ∀ i : grid0.Coords, EltTy.bits .f32 = 32 ∨ (Rect.block (s := S32x1x128) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x128.size a ≤ S32x128x128.size a
  hwx0_7 : ∀ i : grid0.Coords, EltTy.bits .f32 = 32 ∨ (Rect.block (s := S32x128x128) S1x128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S32x1x128.size a
  hwx0_8 : ∀ i : grid0.Coords, EltTy.bits .f32 = 32 ∨ (Rect.block (s := S32x1x128) S1x1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x3x128.size a ≤ S32x3x128.size a
  hwx0_9 : ∀ i : grid0.Coords, EltTy.bits .f32 = 32 ∨ (Rect.block (s := S32x3x128) S1x3x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x3.size a ≤ S32x1x3.size a
  hwx0_10 : ∀ i : grid0.Coords, EltTy.bits .f32 = 32 ∨ (Rect.block (s := S32x1x3) S1x1x3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x16384x3.size a ≤ S32x32768x3.size a
  hwx0_11 : ∀ i : grid0.Coords, EltTy.bits .f32 = 32 ∨ (Rect.block (s := S32x32768x3) S1x16384x3.size (cc0_transform_11 i) (hinb0_11 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x3_S16384x3_1_0_0_1_n_n : DotDims S16384x128 S128x3 S16384x3 where
  lhsContracting := [1]
  rhsContracting := [0]
  lhsNonContracting := [0]
  rhsNonContracting := [1]
  lhsBatch := []
  rhsBatch := []
  wf := dot_S16384x128_S128x3_S16384x3_1_0_0_1_n_n_wf

abbrev win0_0 : Pipeline.Window sig grid0 :=
  Pipeline.Window.ofSpec (Memref.whole main_arg0) S1x16384x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x128x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x128x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x1x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x3x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v19) S1x1x3.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v20) S1x16384x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32x32768x2 : Shape := ⟨3, ![32, 32768, 2]⟩
abbrev S32x50307 : Shape := ⟨2, ![32, 50307]⟩
abbrev S32x256 : Shape := ⟨2, ![32, 256]⟩
abbrev S32x128x2 : Shape := ⟨3, ![32, 128, 2]⟩
abbrev S32x32768x128 : Shape := ⟨3, ![32, 32768, 128]⟩
abbrev S32x128 : Shape := ⟨2, ![32, 128]⟩
abbrev S32x1x128 : Shape := ⟨3, ![32, 1, 128]⟩
abbrev S_ : Shape := ⟨0, ![]⟩
abbrev S32x16384 : Shape := ⟨2, ![32, 16384]⟩
abbrev S32x128x128 : Shape := ⟨3, ![32, 128, 128]⟩
abbrev S32x384 : Shape := ⟨2, ![32, 384]⟩
abbrev S32x3x128 : Shape := ⟨3, ![32, 3, 128]⟩
abbrev S32x32768x3 : Shape := ⟨3, ![32, 32768, 3]⟩
abbrev S32x3 : Shape := ⟨2, ![32, 3]⟩
abbrev S32x1x3 : Shape := ⟨3, ![32, 1, 3]⟩

abbrev nBuf : Space → Nat
  | .hbm => 53
  | .vmem => 0
  | .smem => 0
  | _ => 0

abbrev bufTy : (tb : Table) → Fin (tcTables nBuf tb) → BufTy
  | .hbm, ⟨0, _⟩ => ⟨S32x32768x2, .f32⟩
  | .hbm, ⟨1, _⟩ => ⟨S32x50307, .f32⟩
  | .hbm, ⟨2, _⟩ => ⟨S32x256, .f32⟩
  | .hbm, ⟨3, _⟩ => ⟨S32x128x2, .f32⟩
  | .hbm, ⟨4, _⟩ => ⟨S32x32768x128, .f32⟩
  | .hbm, ⟨5, _⟩ => ⟨S32x128, .f32⟩
  | .hbm, ⟨6, _⟩ => ⟨S32x1x128, .f32⟩
  | .hbm, ⟨7, _⟩ => ⟨S32x32768x128, .f32⟩
  | .hbm, ⟨8, _⟩ => ⟨S32x32768x128, .f32⟩
  | .hbm, ⟨9, _⟩ => ⟨S_, .f32⟩
  | .hbm, ⟨10, _⟩ => ⟨S32x32768x128, .f32⟩
  | .hbm, ⟨11, _⟩ => ⟨S32x32768x128, .f32⟩
  | .hbm, ⟨12, _⟩ => ⟨S32x32768x128, .f32⟩
  | .hbm, ⟨13, _⟩ => ⟨S32x16384, .f32⟩
  | .hbm, ⟨14, _⟩ => ⟨S32x128x128, .f32⟩
  | .hbm, ⟨15, _⟩ => ⟨S32x32768x128, .f32⟩
  | .hbm, ⟨16, _⟩ => ⟨S32x128, .f32⟩
  | .hbm, ⟨17, _⟩ => ⟨S32x1x128, .f32⟩
  | .hbm, ⟨18, _⟩ => ⟨S32x32768x128, .f32⟩
  | .hbm, ⟨19, _⟩ => ⟨S32x32768x128, .f32⟩
  | .hbm, ⟨20, _⟩ => ⟨S_, .f32⟩
  | .hbm, ⟨21, _⟩ => ⟨S32x32768x128, .f32⟩
  | .hbm, ⟨22, _⟩ => ⟨S32x32768x128, .f32⟩
  | .hbm, ⟨23, _⟩ => ⟨S32x32768x128, .f32⟩
  | .hbm, ⟨24, _⟩ => ⟨S32x16384, .f32⟩
  | .hbm, ⟨25, _⟩ => ⟨S32x128x128, .f32⟩
  | .hbm, ⟨26, _⟩ => ⟨S32x32768x128, .f32⟩
  | .hbm, ⟨27, _⟩ => ⟨S32x128, .f32⟩
  | .hbm, ⟨28, _⟩ => ⟨S32x1x128, .f32⟩
  | .hbm, ⟨29, _⟩ => ⟨S32x32768x128, .f32⟩
  | .hbm, ⟨30, _⟩ => ⟨S32x32768x128, .f32⟩
  | .hbm, ⟨31, _⟩ => ⟨S_, .f32⟩
  | .hbm, ⟨32, _⟩ => ⟨S32x32768x128, .f32⟩
  | .hbm, ⟨33, _⟩ => ⟨S32x32768x128, .f32⟩
  | .hbm, ⟨34, _⟩ => ⟨S32x32768x128, .f32⟩
  | .hbm, ⟨35, _⟩ => ⟨S32x16384, .f32⟩
  | .hbm, ⟨36, _⟩ => ⟨S32x128x128, .f32⟩
  | .hbm, ⟨37, _⟩ => ⟨S32x32768x128, .f32⟩
  | .hbm, ⟨38, _⟩ => ⟨S32x128, .f32⟩
  | .hbm, ⟨39, _⟩ => ⟨S32x1x128, .f32⟩
  | .hbm, ⟨40, _⟩ => ⟨S32x32768x128, .f32⟩
  | .hbm, ⟨41, _⟩ => ⟨S32x32768x128, .f32⟩
  | .hbm, ⟨42, _⟩ => ⟨S_, .f32⟩
  | .hbm, ⟨43, _⟩ => ⟨S32x32768x128, .f32⟩
  | .hbm, ⟨44, _⟩ => ⟨S32x32768x128, .f32⟩
  | .hbm, ⟨45, _⟩ => ⟨S32x32768x128, .f32⟩
  | .hbm, ⟨46, _⟩ => ⟨S32x384, .f32⟩
  | .hbm, ⟨47, _⟩ => ⟨S32x3x128, .f32⟩
  | .hbm, ⟨48, _⟩ => ⟨S32x32768x3, .f32⟩
  | .hbm, ⟨49, _⟩ => ⟨S32x3, .f32⟩
  | .hbm, ⟨50, _⟩ => ⟨S32x1x3, .f32⟩
  | .hbm, ⟨51, _⟩ => ⟨S32x32768x3, .f32⟩
  | .hbm, ⟨52, _⟩ => ⟨S32x32768x3, .f32⟩
  | _, _ => ⟨S32x32768x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_1 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_2 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩

abbrev nD : Nat := 1
abbrev τ : Topo := Topo.v7x

variable {F : FTy → Type} [FloatOps F]

class Facts₀ : Prop where
  slices_S32x50307_S32x256_0_0 : S32x50307.Slices ![0, 0] S32x256
  shapeCasts_S32x256_S32x128x2 : S32x256.ShapeCasts S32x128x2
  slices_S32x50307_S32x128_0_256 : S32x50307.Slices ![0, 256] S32x128
  shapeCasts_S32x128_S32x1x128 : S32x128.ShapeCasts S32x1x128
  bcast_S32x1x128_S32x32768x128_0_1_2 : S32x1x128.BroadcastsInDim S32x32768x128 (![0, 1, 2] : Fin 3 → Fin S32x32768x128.rank)
  bcast_S_S32x32768x128 : S_.BroadcastsInDim S32x32768x128 (![] : Fin 0 → Fin S32x32768x128.rank)
  slices_S32x50307_S32x16384_0_384 : S32x50307.Slices ![0, 384] S32x16384
  shapeCasts_S32x16384_S32x128x128 : S32x16384.ShapeCasts S32x128x128
  slices_S32x50307_S32x128_0_16768 : S32x50307.Slices ![0, 16768] S32x128
  slices_S32x50307_S32x16384_0_16896 : S32x50307.Slices ![0, 16896] S32x16384
  slices_S32x50307_S32x128_0_33280 : S32x50307.Slices ![0, 33280] S32x128
  slices_S32x50307_S32x16384_0_33408 : S32x50307.Slices ![0, 33408] S32x16384
  slices_S32x50307_S32x128_0_49792 : S32x50307.Slices ![0, 49792] S32x128
  slices_S32x50307_S32x384_0_49920 : S32x50307.Slices ![0, 49920] S32x384
  shapeCasts_S32x384_S32x3x128 : S32x384.ShapeCasts S32x3x128
  slices_S32x50307_S32x3_0_50304 : S32x50307.Slices ![0, 50304] S32x3
  shapeCasts_S32x3_S32x1x3 : S32x3.ShapeCasts S32x1x3
  bcast_S32x1x3_S32x32768x3_0_1_2 : S32x1x3.BroadcastsInDim S32x32768x3 (![0, 1, 2] : Fin 3 → Fin S32x32768x3.rank)
  dot_S32x32768x2_S32x128x2_S32x32768x128_2_2_1_1_0_0_wf : DotDims.WF S32x32768x2 S32x128x2 S32x32768x128 [2] [2] [1] [1] [0] [0]
  dot_S32x32768x128_S32x128x128_S32x32768x128_2_2_1_1_0_0_wf : DotDims.WF S32x32768x128 S32x128x128 S32x32768x128 [2] [2] [1] [1] [0] [0]
  dot_S32x32768x128_S32x3x128_S32x32768x3_2_2_1_1_0_0_wf : DotDims.WF S32x32768x128 S32x3x128 S32x32768x3 [2] [2] [1] [1] [0] [0]

variable [Facts₀]

def dot_S32x32768x2_S32x128x2_S32x32768x128_2_2_1_1_0_0 : DotDims S32x32768x2 S32x128x2 S32x32768x128 where
  lhsContracting := [2]
  rhsContracting := [2]
  lhsNonContracting := [1]
  rhsNonContracting := [1]
  lhsBatch := [0]
  rhsBatch := [0]
  wf := dot_S32x32768x2_S32x128x2_S32x32768x128_2_2_1_1_0_0_wf
def dot_S32x32768x128_S32x128x128_S32x32768x128_2_2_1_1_0_0 : DotDims S32x32768x128 S32x128x128 S32x32768x128 where
  lhsContracting := [2]
  rhsContracting := [2]
  lhsNonContracting := [1]
  rhsNonContracting := [1]
  lhsBatch := [0]
  rhsBatch := [0]
  wf := dot_S32x32768x128_S32x128x128_S32x32768x128_2_2_1_1_0_0_wf
def dot_S32x32768x128_S32x3x128_S32x32768x3_2_2_1_1_0_0 : DotDims S32x32768x128 S32x3x128 S32x32768x3 where
  lhsContracting := [2]
  rhsContracting := [2]
  lhsNonContracting := [1]
  rhsNonContracting := [1]
  lhsBatch := [0]
  rhsBatch := [0]
  wf := dot_S32x32768x128_S32x3x128_S32x32768x3_2_2_1_1_0_0_wf

class Facts : Prop extends Facts₀ where

variable [Facts]
-- ==== Proof.Siren.lean ====
/-
  A sine network, one row at a time, on the extended reals.

  The network takes a row of two numbers through five dense layers: 2 → H → H → H → H → O. A dense layer sends a
  row `h` of `K` numbers to the row `o ↦ (∑ k, h k · W o k) + b o`, the weight matrix stored one OUTPUT per row
  (`W o k`), so the layer is the product of the row with the transpose of `W`. After each of the first four layers
  every entry `z` becomes `sin (ω · z)`, `ω` the number the f32 word `0x41F00000` denotes (thirty). The first
  layer's contraction has only two terms and is written out as their sum.

  Each output row depends on its own input row and on the weights of its batch entry only. So the whole-array function
  `G` below — batch entry `b`, point `n`, output `j` — is the row function at row `(b, n)` of the coordinates and the
  weights of batch entry `b`: a tile of rows computed on its own is a block of `G`.
-/
import Idealize.ShloMosaic.PureOps.Ideal
import Idealize.ShloMosaic.Lib.ValueIdx

noncomputable section

namespace Cert.Siren

open Idealize.ShloMosaic Idealize.ShloMosaic.ValueIdx

/-- The activation: `z ↦ sin (ω · z)` with `ω` the f32 word `0x41F00000`. -/
def act (z : EReal) : EReal := Ideal.sin (Ideal.ofBits .f32 0x41F00000#32 * z)

/-- A dense layer on one row, the weights one output per row: `o ↦ (∑ k, h k · W o k) + b o`. -/
def dense {K B : ℕ} (h : Fin K → EReal) (W : Fin B → Fin K → EReal) (b : Fin B → EReal) : Fin B → EReal :=
  fun o => (∑ k : Fin K, h k * W o k) + b o

/-- A dense layer followed by the activation. -/
def hidden {K B : ℕ} (h : Fin K → EReal) (W : Fin B → Fin K → EReal) (b : Fin B → EReal) : Fin B → EReal :=
  fun o => act (dense h W b o)

/-- The first layer, its two-term contraction written out, followed by the activation. -/
def first {B : ℕ} (x : Fin 2 → EReal) (W : Fin B → Fin 2 → EReal) (b : Fin B → EReal) : Fin B → EReal :=
  fun o => act ((x 0 * W o 0 + x 1 * W o 1) + b o)

/-- The first layer is a dense layer with the activation: a sum over two indices is the sum of its two terms. -/
theorem first_eq_hidden {B : ℕ} (x : Fin 2 → EReal) (W : Fin B → Fin 2 → EReal) (b : Fin B → EReal) :
    first x W b = hidden x W b := by
  funext o
  show act ((x 0 * W o 0 + x 1 * W o 1) + b o) = act ((∑ k : Fin 2, x k * W o k) + b o)
  rw [Fin.sum_univ_two]

/-- The five layers on one row. -/
def net {H O : ℕ} (x : Fin 2 → EReal) (W0 : Fin H → Fin 2 → EReal) (b0 : Fin H → EReal)
    (W1 : Fin H → Fin H → EReal) (b1 : Fin H → EReal) (W2 : Fin H → Fin H → EReal) (b2 : Fin H → EReal)
    (W3 : Fin H → Fin H → EReal) (b3 : Fin H → EReal) (W4 : Fin O → Fin H → EReal) (b4 : Fin O → EReal) : Fin O → EReal :=
  dense (hidden (hidden (hidden (first x W0 b0) W1 b1) W2 b2) W3 b3) W4 b4

/-- The network on every row of a batch of point sets: entry `(b, n, j)` is output `j` of the row function at the
    coordinates of point `n` of batch entry `b` and that batch entry's weights (each bias kept with a unit middle axis). -/
def G (x : (⟨3, ![32, 32768, 2]⟩ : Shape).Idx → EReal)
    (W0 : (⟨3, ![32, 128, 2]⟩ : Shape).Idx → EReal) (b0 : (⟨3, ![32, 1, 128]⟩ : Shape).Idx → EReal)
    (W1 : (⟨3, ![32, 128, 128]⟩ : Shape).Idx → EReal) (b1 : (⟨3, ![32, 1, 128]⟩ : Shape).Idx → EReal)
    (W2 : (⟨3, ![32, 128, 128]⟩ : Shape).Idx → EReal) (b2 : (⟨3, ![32, 1, 128]⟩ : Shape).Idx → EReal)
    (W3 : (⟨3, ![32, 128, 128]⟩ : Shape).Idx → EReal) (b3 : (⟨3, ![32, 1, 128]⟩ : Shape).Idx → EReal)
    (W4 : (⟨3, ![32, 3, 128]⟩ : Shape).Idx → EReal) (b4 : (⟨3, ![32, 1, 3]⟩ : Shape).Idx → EReal) :
    (⟨3, ![32, 32768, 3]⟩ : Shape).Idx → EReal :=
  fun i => net (fun d => x (ix3 (i 0) (i 1) d))
    (fun o d => W0 (ix3 (i 0) o d)) (fun o => b0 (ix3 (i 0) (0 : Fin 1) o))
    (fun o k => W1 (ix3 (i 0) o k)) (fun o => b1 (ix3 (i 0) (0 : Fin 1) o))
    (fun o k => W2 (ix3 (i 0) o k)) (fun o => b2 (ix3 (i 0) (0 : Fin 1) o))
    (fun o k => W3 (ix3 (i 0) o k)) (fun o => b3 (ix3 (i 0) (0 : Fin 1) o))
    (fun o k => W4 (ix3 (i 0) o k)) (fun o => b4 (ix3 (i 0) (0 : Fin 1) o)) (i 2)

/-- `G` at an entry given by its coordinates. -/
theorem G_apply (x : (⟨3, ![32, 32768, 2]⟩ : Shape).Idx → EReal)
    (W0 : (⟨3, ![32, 128, 2]⟩ : Shape).Idx → EReal) (b0 : (⟨3, ![32, 1, 128]⟩ : Shape).Idx → EReal)
    (W1 : (⟨3, ![32, 128, 128]⟩ : Shape).Idx → EReal) (b1 : (⟨3, ![32, 1, 128]⟩ : Shape).Idx → EReal)
    (W2 : (⟨3, ![32, 128, 128]⟩ : Shape).Idx → EReal) (b2 : (⟨3, ![32, 1, 128]⟩ : Shape).Idx → EReal)
    (W3 : (⟨3, ![32, 128, 128]⟩ : Shape).Idx → EReal) (b3 : (⟨3, ![32, 1, 128]⟩ : Shape).Idx → EReal)
    (W4 : (⟨3, ![32, 3, 128]⟩ : Shape).Idx → EReal) (b4 : (⟨3, ![32, 1, 3]⟩ : Shape).Idx → EReal)
    (b : Fin 32) (n : Fin 32768) (j : Fin 3) :
    G x W0 b0 W1 b1 W2 b2 W3 b3 W4 b4 (ix3 b n j)
      = net (fun d => x (ix3 b n d))
          (fun o d => W0 (ix3 b o d)) (fun o => b0 (ix3 b (0 : Fin 1) o))
          (fun o k => W1 (ix3 b o k)) (fun o => b1 (ix3 b (0 : Fin 1) o))
          (fun o k => W2 (ix3 b o k)) (fun o => b2 (ix3 b (0 : Fin 1) o))
          (fun o k => W3 (ix3 b o k)) (fun o => b3 (ix3 b (0 : Fin 1) o))
          (fun o k => W4 (ix3 b o k)) (fun o => b4 (ix3 b (0 : Fin 1) o)) j := rfl

end Cert.Siren

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibColumnBroadcast.lean ====
/- A general layout fact: a column broadcast over the lanes, read at an index. -/
import Idealize.ShloMosaic.Lib.Pipeline.Value
import Idealize.ShloMosaic.Lib.ValueIdx

namespace Cert.Lib

open Idealize.ShloMosaic Idealize.ShloMosaic.ValueIdx

/-- An `[a, 1]` array (one value per row, as a reduction that keeps its axis leaves it) broadcast to `[a, b]` reads, at
    `(p, c)`, row `p`'s one value, whatever the column `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibSineLayer.lean ====
/-
  A tile's dense layer against a weight matrix stored one output per row, and the same followed by a sine.

  A kernel that holds a weight matrix `w` as `[B, K]` (one output per row) multiplies a tile `h` of `A` rows of `K`
  numbers by the TRANSPOSE of `w`: a `tpu.matmul` "rows × contraction against contraction × columns" of `h` and the
  transposed matrix into the zero accumulator, plus a `[1, B]` bias row repeated over the rows. At the ideal values
  and at entry `(p, q)` this is `(∑ k, h (p, k) · w (q, k)) + bias (0, q)`: the product is the plain sum whatever the
  contraction precision asked for, the transpose swaps the two coordinates, and the broadcast row reads its one row.
  Multiplying every entry by a splat constant `c` and taking the sine gives `sin (c · that)`.
  Generic in the extents `A`, `K`, `B` and in the operands' float formats.

  Three readings of a tile's operands, loaded as blocks with a leading unit axis, are here too, for a layer whose
  contraction is short enough to be written out term by term: column `d` of the input block repeated over the
  outputs, column `d` of the weight block laid as a row and repeated over the tile's rows, and the bias block's row
  repeated over the tile's rows.
-/
import Idealize.ShloMosaic.PureOps.Ideal.Laws
import Idealize.ShloMosaic.Lib.ValueIdx
import Idealize.ShloMosaic.Lib.ValueLayout
import proofs.«109121_j16501264351966_2_alg».proof.Proof.LibMatmul2
import proofs.«109121_j16501264351966_2_alg».proof.Proof.LibColumnBroadcast

noncomputable section

namespace Cert.Lib

open Idealize.ShloMosaic Idealize.ShloMosaic.ValueIdx

variable {A K B : ℕ} {φ₁ φ₂ : FTy}

/-- The plain product into the zero accumulator at `(p, q)` is `∑ k, l (p, k) * r (k, q)` at every contraction
    precision: on the extended reals the precision asked for does not enter the sum. -/
theorem matmul2_zero_apply_prec (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (p : Fin A) (q : Fin B) :
    matmul (plain2 wf) prec l r (constant ⟨2, ![A, B]⟩ .f32 0x00000000#32) (ix2 p q)
      = ∑ k : Fin K, l (ix2 p k) * r (ix2 k q) :=
  ((Ideal.matmul_constant_zero_apply (plain2 wf) prec l r (ix2 p q)).trans
    (Ideal.matmul_constant_zero_apply (plain2 wf) none l r (ix2 p q)).symm).trans (matmul2_zero_apply wf l r p q)

/-- A tile's dense layer against a weight matrix stored one output per row, at `(p, q)`: the product with the
    transposed matrix into the zero accumulator plus the bias row is `(∑ k, h (p, k) · w (q, k)) + bias (0, q)`. -/
theorem rowsDense_tile_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = plain2 wf)
    (prec : Option ContractPrecision)
    (h : FVec Ideal ⟨2, ![A, K]⟩ φ₁) (w : FVec Ideal ⟨2, ![B, K]⟩ φ₂) (bias : FVec Ideal ⟨2, ![1, B]⟩ .f32)
    (ht : (⟨2, ![B, K]⟩ : Shape).Transposes [1, 0] ⟨2, ![K, B]⟩)
    (hbc : (⟨2, ![1, B]⟩ : Shape).Broadcasts ⟨2, ![A, B]⟩) (p : Fin A) (q : Fin B) :
    addf (matmul D prec h (transpose ⟨2, ![K, B]⟩ [1, 0] w ht) (constant ⟨2, ![A, B]⟩ .f32 0x00000000#32))
        (broadcastTo ⟨2, ![A, B]⟩ bias hbc) (ix2 p q)
      = (∑ k : Fin K, h (ix2 p k) * w (ix2 q k)) + bias (ix2 (0 : Fin 1) q) := by
  subst hD
  rw [addf_apply, matmul2_zero_apply_prec, broadcastTo_1b_ab_apply]
  refine congrArg (· + bias (ix2 (0 : Fin 1) q)) (Finset.sum_congr rfl fun k _ => ?_)
  exact congrArg (h (ix2 p k) * ·) (transpose_ix2_apply w ht k q)

/-- The same layer with every entry multiplied by the splat of the f32 word `c` and the sine taken, at `(p, q)`:
    `sin (c · ((∑ k, h (p, k) · w (q, k)) + bias (0, q)))`. -/
theorem sineDense_tile_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = plain2 wf)
    (prec : Option ContractPrecision) (c : BitVec 32)
    (h : FVec Ideal ⟨2, ![A, K]⟩ φ₁) (w : FVec Ideal ⟨2, ![B, K]⟩ φ₂) (bias : FVec Ideal ⟨2, ![1, B]⟩ .f32)
    (ht : (⟨2, ![B, K]⟩ : Shape).Transposes [1, 0] ⟨2, ![K, B]⟩)
    (hbc : (⟨2, ![1, B]⟩ : Shape).Broadcasts ⟨2, ![A, B]⟩) (p : Fin A) (q : Fin B) :
    sin (mulf (broadcast ⟨2, ![A, B]⟩ (Scalar.ofBits (F := Ideal) .f32 c))
        (addf (matmul D prec h (transpose ⟨2, ![K, B]⟩ [1, 0] w ht) (constant ⟨2, ![A, B]⟩ .f32 0x00000000#32))
          (broadcastTo ⟨2, ![A, B]⟩ bias hbc))) (ix2 p q)
      = Ideal.sin (Ideal.ofBits .f32 c * ((∑ k : Fin K, h (ix2 p k) * w (ix2 q k)) + bias (ix2 (0 : Fin 1) q))) :=
  congrArg (fun z => Ideal.sin (Ideal.ofBits .f32 c * z)) (rowsDense_tile_apply D wf hD prec h w bias ht hbc p q)

/-! ## A short contraction written out: the operands one column at a time -/

variable {α : Type} {D : ℕ}

/-- Column `d` of an input block `[1, A, D]` — the unit axis cast away, the column cut out from offset `o = d`,
    and repeated over `B` outputs — reads, at `(p, q)`, the block at `(0, p, d)`. -/
theorem inputColumn_apply (x : (⟨3, ![1, A, D]⟩ : Shape).Idx → α)
    (hc : (⟨3, ![1, A, D]⟩ : Shape).ShapeCasts ⟨2, ![A, D]⟩) (o : ℕ)
    (hs : (⟨2, ![A, D]⟩ : Shape).Slices ![0, o] ⟨2, ![A, 1]⟩)
    (hb : (⟨2, ![A, 1]⟩ : Shape).Broadcasts ⟨2, ![A, B]⟩) (d : Fin D) (hd : d.val = o) (p : Fin A) (q : Fin B) :
    broadcastTo ⟨2, ![A, B]⟩ (extractStridedSlice ⟨2, ![A, 1]⟩ ![0, o] (shapeCast ⟨2, ![A, D]⟩ x hc) hs) hb (ix2 p q)
      = x (ix3 (0 : Fin 1) p d) :=
  (broadcastTo_a1_ab_apply _ hb p q).trans
    ((slice2_axis1_apply o _ hs p (0 : Fin 1) d (by rw [hd]; rfl)).trans (shapeCast_1ab_ab_apply x hc p d))

/-- Column `d` of a weight block `[1, B, D]` (one output per row) — the unit axis cast away, the column cut out
    from offset `o = d`, transposed to a row and repeated over `A` rows — reads, at `(p, q)`, the block at `(0, q, d)`. -/
theorem weightColumn_apply (w : (⟨3, ![1, B, D]⟩ : Shape).Idx → α)
    (hc : (⟨3, ![1, B, D]⟩ : Shape).ShapeCasts ⟨2, ![B, D]⟩) (o : ℕ)
    (hs : (⟨2, ![B, D]⟩ : Shape).Slices ![0, o] ⟨2, ![B, 1]⟩)
    (ht : (⟨2, ![B, 1]⟩ : Shape).Transposes [1, 0] ⟨2, ![1, B]⟩)
    (hb : (⟨2, ![1, B]⟩ : Shape).Broadcasts ⟨2, ![A, B]⟩) (d : Fin D) (hd : d.val = o) (p : Fin A) (q : Fin B) :
    broadcastTo ⟨2, ![A, B]⟩ (transpose ⟨2, ![1, B]⟩ [1, 0]
        (extractStridedSlice ⟨2, ![B, 1]⟩ ![0, o] (shapeCast ⟨2, ![B, D]⟩ w hc) hs) ht) hb (ix2 p q)
      = w (ix3 (0 : Fin 1) q d) :=
  (broadcastTo_1b_ab_apply _ hb p q).trans
    ((transpose_ix2_apply _ ht (0 : Fin 1) q).trans
      ((slice2_axis1_apply o _ hs q (0 : Fin 1) d (by rw [hd]; rfl)).trans (shapeCast_1ab_ab_apply w hc q d)))

/-- A bias block `[1, 1, B]` — a unit axis cast away and the row repeated over `A` rows — reads, at `(p, q)`, the
    block at `(0, 0, q)`. -/
theorem biasRow_apply (b : (⟨3, ![1, 1, B]⟩ : Shape).Idx → α)
    (hc : (⟨3, ![1, 1, B]⟩ : Shape).ShapeCasts ⟨2, ![1, B]⟩)
    (hb : (⟨2, ![1, B]⟩ : Shape).Broadcasts ⟨2, ![A, B]⟩) (p : Fin A) (q : Fin B) :
    broadcastTo ⟨2, ![A, B]⟩ (shapeCast ⟨2, ![1, B]⟩ b hc) hb (ix2 p q) = b (ix3 (0 : Fin 1) (0 : Fin 1) q) :=
  (broadcastTo_1b_ab_apply _ hb p q).trans (shapeCast_1ab_ab_apply b hc (0 : Fin 1) q)

end Cert.Lib

end
-- ==== Proof.KernelRows.lean ====
/-
  What the kernel's body computes on one tile, entry by entry.

  The body loads a tile of 16384 coordinate rows `[1, 16384, 2]` and the weights and biases of the tile's batch entry
  (each weight matrix one output per row, each bias a `[1, 1, n]` block) and computes the five layers on all rows at
  once: the first layer as two products of a coordinate column with a weight column, the three 128 × 128 layers as
  products of the tile with the transposed weight matrix after a change of float format (the identity on the extended
  reals), the last layer as such a product at full precision; a bias row added after each and `sin (ω · _)` taken after
  the first four. Entry `(r, o)` of what it computes therefore depends on row `r` of the tile only, and is the row
  function of `Cert.Siren` at that row: the body's first half (two layers) and second half (three layers) below.
-/
import proofs.«109121_j16501264351966_2_alg».proof.Proof.Gen.KernelIdeal.Skeleton
import proofs.«109121_j16501264351966_2_alg».proof.Proof.Siren
import proofs.«109121_j16501264351966_2_alg».proof.Proof.LibSineLayer
import Idealize.ShloMosaic.Lib.ValueLayout

noncomputable section

namespace Cert.KernelIdeal.Rows

open Cert.KernelIdeal Cert.KernelIdeal.Gen Idealize.ShloMosaic Idealize.ShloMosaic.ValueIdx

/-- The body's first half at `(r, o)`: the first layer and the second on row `r` of the tile. -/
theorem firstHalf_apply (v0 : FVec Ideal S1x16384x2 .f32) (v2 : FVec Ideal S1x128x2 .f32) (v4 : FVec Ideal S1x1x128 .f32)
    (v24 : FVec Ideal S1x128x128 .f32) (v26 : FVec Ideal S1x1x128 .f32) (r : Fin 16384) (o : Fin 128) :
    k0_pay1 (F := Ideal) v0 v2 v4 v24 v26 (ix2 r o)
      = Cert.Siren.hidden
          (Cert.Siren.first (fun d => v0 (ix3 (0 : Fin 1) r d)) (fun q d => v2 (ix3 (0 : Fin 1) q d))
            (fun q => v4 (ix3 (0 : Fin 1) (0 : Fin 1) q)))
          (fun q k => v24 (ix3 (0 : Fin 1) q k)) (fun q => v26 (ix3 (0 : Fin 1) (0 : Fin 1) q)) o := by
  unfold k0_pay1
  refine (Cert.Lib.sineDense_tile_apply _ _ rfl none 0x41F00000#32 _ _ _ _ _ r o).trans ?_
  refine congrArg (fun z => Ideal.sin (Ideal.ofBits .f32 0x41F00000#32 * z)) ?_
  refine congrArg₂ (· + ·) (Finset.sum_congr rfl fun k _ => congrArg₂ (· * ·) ?_ ?_) ?_
  · -- the first layer at (r, k): two coordinate columns against two weight columns, plus the bias row
    refine congrArg (fun z => Ideal.sin (Ideal.ofBits .f32 0x41F00000#32 * z)) ?_
    refine congrArg₂ (· + ·) (congrArg₂ (· + ·) (congrArg₂ (· * ·) ?_ ?_) (congrArg₂ (· * ·) ?_ ?_)) ?_
    · exact Cert.Lib.inputColumn_apply v0 _ 0 _ _ (0 : Fin 2) rfl r k
    · exact Cert.Lib.weightColumn_apply v2 _ 0 _ _ _ (0 : Fin 2) rfl r k
    · exact Cert.Lib.inputColumn_apply v0 _ 1 _ _ (1 : Fin 2) rfl r k
    · exact Cert.Lib.weightColumn_apply v2 _ 1 _ _ _ (1 : Fin 2) rfl r k
    · exact Cert.Lib.biasRow_apply v4 _ _ r k
  · exact shapeCast_1ab_ab_apply v24 _ o k
  · exact shapeCast_1ab_ab_apply v26 _ (0 : Fin 1) o

/-- The body's second half at `(u, r, j)`: the third, fourth and last layers on row `r` of what the first half left. -/
theorem secondHalf_apply (v36 : FVec Ideal S16384x128 .f32) (v37 : FVec Ideal S1x128x128 .f32) (v39 : FVec Ideal S1x1x128 .f32)
    (v50 : FVec Ideal S1x128x128 .f32) (v52 : FVec Ideal S1x1x128 .f32) (v63 : FVec Ideal S1x3x128 .f32)
    (v65 : FVec Ideal S1x1x3 .f32) (u : Fin 1) (r : Fin 16384) (j : Fin 3) :
    k0_pay2 (F := Ideal) v36 v37 v39 v50 v52 v63 v65 (ix3 u r j)
      = Cert.Siren.dense
          (Cert.Siren.hidden
            (Cert.Siren.hidden (fun k => v36 (ix2 r k))
              (fun q k => v37 (ix3 (0 : Fin 1) q k)) (fun q => v39 (ix3 (0 : Fin 1) (0 : Fin 1) q)))
            (fun q k => v50 (ix3 (0 : Fin 1) q k)) (fun q => v52 (ix3 (0 : Fin 1) (0 : Fin 1) q)))
          (fun q k => v63 (ix3 (0 : Fin 1) q k)) (fun q => v65 (ix3 (0 : Fin 1) (0 : Fin 1) q)) j := by
  unfold k0_pay2
  refine (shapeCast_ab_1ab_apply _ _ u r j).trans ?_
  refine (Cert.Lib.rowsDense_tile_apply _ _ rfl (some .fp32) _ _ _ _ _ r j).trans ?_
  refine congrArg₂ (· + ·) (Finset.sum_congr rfl fun k _ => congrArg₂ (· * ·) ?_ ?_) ?_
  · -- the fourth layer at (r, k)
    refine (Cert.Lib.sineDense_tile_apply _ _ rfl none 0x41F00000#32 _ _ _ _ _ r k).trans ?_
    refine congrArg (fun z => Ideal.sin (Ideal.ofBits .f32 0x41F00000#32 * z)) ?_
    refine congrArg₂ (· + ·) (Finset.sum_congr rfl fun k' _ => congrArg₂ (· * ·) ?_ ?_) ?_
    · -- the third layer at (r, k')
      refine (Cert.Lib.sineDense_tile_apply _ _ rfl none 0x41F00000#32 _ _ _ _ _ r k').trans ?_
      refine congrArg (fun z => Ideal.sin (Ideal.ofBits .f32 0x41F00000#32 * z)) ?_
      refine congrArg₂ (· + ·) (Finset.sum_congr rfl fun k'' _ => congrArg₂ (· * ·) rfl ?_) ?_
      · exact shapeCast_1ab_ab_apply v37 _ k' k''
      · exact shapeCast_1ab_ab_apply v39 _ (0 : Fin 1) k'
    · exact shapeCast_1ab_ab_apply v50 _ k k'
    · exact shapeCast_1ab_ab_apply v52 _ (0 : Fin 1) k
  · exact shapeCast_1ab_ab_apply v63 _ j k
  · exact shapeCast_1ab_ab_apply v65 _ (0 : Fin 1) j

/-- The whole body on one tile is a block of `Cert.Siren.G`. If the tile's coordinate block is rows `n0 … n0 + 16383` of
    batch entry `bI` of the coordinate array, and each weight and bias block is batch entry `bI` of its array, then what
    the body stores at `y = (u, r, j)` is `G` of the whole arrays at `(bI, n0 + r, j)`: both are the row function at that row. -/
theorem tile_apply
    (X : (⟨3, ![32, 32768, 2]⟩ : Shape).Idx → EReal)
    (A1 : (⟨3, ![32, 128, 2]⟩ : Shape).Idx → EReal) (A2 : (⟨3, ![32, 1, 128]⟩ : Shape).Idx → EReal)
    (A3 : (⟨3, ![32, 128, 128]⟩ : Shape).Idx → EReal) (A4 : (⟨3, ![32, 1, 128]⟩ : Shape).Idx → EReal)
    (A5 : (⟨3, ![32, 128, 128]⟩ : Shape).Idx → EReal) (A6 : (⟨3, ![32, 1, 128]⟩ : Shape).Idx → EReal)
    (A7 : (⟨3, ![32, 128, 128]⟩ : Shape).Idx → EReal) (A8 : (⟨3, ![32, 1, 128]⟩ : Shape).Idx → EReal)
    (A9 : (⟨3, ![32, 3, 128]⟩ : Shape).Idx → EReal) (A10 : (⟨3, ![32, 1, 3]⟩ : Shape).Idx → EReal)
    (x0 : FVec Ideal S1x16384x2 .f32) (x1 : FVec Ideal S1x128x2 .f32) (x2 : FVec Ideal S1x1x128 .f32)
    (x3 : FVec Ideal S1x128x128 .f32) (x4 : FVec Ideal S1x1x128 .f32) (x5 : FVec Ideal S1x128x128 .f32)
    (x6 : FVec Ideal S1x1x128 .f32) (x7 : FVec Ideal S1x128x128 .f32) (x8 : FVec Ideal S1x1x128 .f32)
    (x9 : FVec Ideal S1x3x128 .f32) (x10 : FVec Ideal S1x1x3 .f32)
    (bI : Fin 32) (n0 : ℕ)
    (h0 : ∀ (r : Fin 16384) (d : Fin 2) (hn : n0 + r.val < 32768), x0 (ix3 (0 : Fin 1) r d) = X (ix3 bI ⟨n0 + r.val, hn⟩ d))
    (h1 : ∀ (q : Fin 128) (d : Fin 2), x1 (ix3 (0 : Fin 1) q d) = A1 (ix3 bI q d))
    (h2 : ∀ (u : Fin 1) (q : Fin 128), x2 (ix3 (0 : Fin 1) u q) = A2 (ix3 bI u q))
    (h3 : ∀ (q : Fin 128) (k : Fin 128), x3 (ix3 (0 : Fin 1) q k) = A3 (ix3 bI q k))
    (h4 : ∀ (u : Fin 1) (q : Fin 128), x4 (ix3 (0 : Fin 1) u q) = A4 (ix3 bI u q))
    (h5 : ∀ (q : Fin 128) (k : Fin 128), x5 (ix3 (0 : Fin 1) q k) = A5 (ix3 bI q k))
    (h6 : ∀ (u : Fin 1) (q : Fin 128), x6 (ix3 (0 : Fin 1) u q) = A6 (ix3 bI u q))
    (h7 : ∀ (q : Fin 128) (k : Fin 128), x7 (ix3 (0 : Fin 1) q k) = A7 (ix3 bI q k))
    (h8 : ∀ (u : Fin 1) (q : Fin 128), x8 (ix3 (0 : Fin 1) u q) = A8 (ix3 bI u q))
    (h9 : ∀ (q : Fin 3) (k : Fin 128), x9 (ix3 (0 : Fin 1) q k) = A9 (ix3 bI q k))
    (h10 : ∀ (u : Fin 1) (q : Fin 3), x10 (ix3 (0 : Fin 1) u q) = A10 (ix3 bI u q))
    (y : S1x16384x3.Idx) (hn : n0 + (y 1).val < 32768) :
    k0_pay2 (F := Ideal) (k0_pay1 (F := Ideal) x0 x1 x2 x3 x4) x5 x6 x7 x8 x9 x10 y
      = Cert.Siren.G X A1 A2 A3 A4 A5 A6 A7 A8 A9 A10 (ix3 bI ⟨n0 + (y 1).val, hn⟩ ⟨(y 2).val, (y 2).isLt⟩) := by
  obtain ⟨u, r, j, rfl⟩ : ∃ (u : Fin 1) (r : Fin 16384) (j : Fin 3), y = ix3 u r j := ⟨y 0, y 1, y 2, eq_ix3 y⟩
  have hn' : n0 + r.val < 32768 := hn
  show k0_pay2 (F := Ideal) (k0_pay1 (F := Ideal) x0 x1 x2 x3 x4) x5 x6 x7 x8 x9 x10 (ix3 u r j)
      = Cert.Siren.G X A1 A2 A3 A4 A5 A6 A7 A8 A9 A10 (ix3 bI ⟨n0 + r.val, hn'⟩ j)
  rw [secondHalf_apply, Cert.Siren.G_apply]
  unfold Cert.Siren.net
  simp only [firstHalf_apply, h0 _ _ hn', h1, h2, h3, h4, h5, h6, h7, h8, h9, h10]

end Cert.KernelIdeal.Rows

end
-- ==== Proof.HostArrays.lean ====
/-
  What the kernel's program writes before it launches the tiles.

  Before the launch the program cuts the flat parameter array `[32, 50307]` into the ten arrays the tiles read: for each
  of the five layers a run of columns recast as that layer's weights (`[32, 128, 2]`, three times `[32, 128, 128]`,
  `[32, 3, 128]`) and the next run recast as its bias with a unit middle axis (`[32, 1, 128]` four times, `[32, 1, 3]`).
  Each of these arrays, as the launch finds it, is that cut of the flat array as launched — stated here one array at a
  time and left unopened: the reference cuts the same columns the same way.
-/
import proofs.«109121_j16501264351966_2_alg».proof.Proof.Gen.KernelIdeal.Frame
import Idealize.ShloMosaic.Lib.StableHlo.Run
import Idealize.ShloMosaic.PureOps.Ideal

noncomputable section

namespace Cert.KernelIdeal.HostArrays

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The array window 1 stages: columns 0 … of the flat array, recast. -/
theorem V_main_v1 (c : Dev nD) : (V m c main_v1 : S32x128x2.Idx → EReal)
    = shapeCast S32x128x2 (extractStridedSlice S32x256 ![0, 0] (m ((c : Thread nD τ).loc main_arg1)) slices_S32x50307_S32x256_0_0) shapeCasts_S32x256_S32x128x2 := by
  dsimp only [Gen.V, Gen.hostOps0]; after_results; rfl

/-- The array window 2 stages: columns 256 … of the flat array, recast. -/
theorem V_main_v3 (c : Dev nD) : (V m c main_v3 : S32x1x128.Idx → EReal)
    = shapeCast S32x1x128 (extractStridedSlice S32x128 ![0, 256] (m ((c : Thread nD τ).loc main_arg1)) slices_S32x50307_S32x128_0_256) shapeCasts_S32x128_S32x1x128 := by
  dsimp only [Gen.V, Gen.hostOps0]; after_results; rfl

/-- The array window 3 stages: columns 384 … of the flat array, recast. -/
theorem V_main_v5 (c : Dev nD) : (V m c main_v5 : S32x128x128.Idx → EReal)
    = shapeCast S32x128x128 (extractStridedSlice S32x16384 ![0, 384] (m ((c : Thread nD τ).loc main_arg1)) slices_S32x50307_S32x16384_0_384) shapeCasts_S32x16384_S32x128x128 := by
  dsimp only [Gen.V, Gen.hostOps0]; after_results; rfl

/-- The array window 4 stages: columns 16768 … of the flat array, recast. -/
theorem V_main_v7 (c : Dev nD) : (V m c main_v7 : S32x1x128.Idx → EReal)
    = shapeCast S32x1x128 (extractStridedSlice S32x128 ![0, 16768] (m ((c : Thread nD τ).loc main_arg1)) slices_S32x50307_S32x128_0_16768) shapeCasts_S32x128_S32x1x128 := by
  dsimp only [Gen.V, Gen.hostOps0]; after_results; rfl

/-- The array window 5 stages: columns 16896 … of the flat array, recast. -/
theorem V_main_v9 (c : Dev nD) : (V m c main_v9 : S32x128x128.Idx → EReal)
    = shapeCast S32x128x128 (extractStridedSlice S32x16384 ![0, 16896] (m ((c : Thread nD τ).loc main_arg1)) slices_S32x50307_S32x16384_0_16896) shapeCasts_S32x16384_S32x128x128 := by
  dsimp only [Gen.V, Gen.hostOps0]; after_results; rfl

/-- The array window 6 stages: columns 33280 … of the flat array, recast. -/
theorem V_main_v11 (c : Dev nD) : (V m c main_v11 : S32x1x128.Idx → EReal)
    = shapeCast S32x1x128 (extractStridedSlice S32x128 ![0, 33280] (m ((c : Thread nD τ).loc main_arg1)) slices_S32x50307_S32x128_0_33280) shapeCasts_S32x128_S32x1x128 := by
  dsimp only [Gen.V, Gen.hostOps0]; after_results; rfl

/-- The array window 7 stages: columns 33408 … of the flat array, recast. -/
theorem V_main_v13 (c : Dev nD) : (V m c main_v13 : S32x128x128.Idx → EReal)
    = shapeCast S32x128x128 (extractStridedSlice S32x16384 ![0, 33408] (m ((c : Thread nD τ).loc main_arg1)) slices_S32x50307_S32x16384_0_33408) shapeCasts_S32x16384_S32x128x128 := by
  dsimp only [Gen.V, Gen.hostOps0]; after_results; rfl

/-- The array window 8 stages: columns 49792 … of the flat array, recast. -/
theorem V_main_v15 (c : Dev nD) : (V m c main_v15 : S32x1x128.Idx → EReal)
    = shapeCast S32x1x128 (extractStridedSlice S32x128 ![0, 49792] (m ((c : Thread nD τ).loc main_arg1)) slices_S32x50307_S32x128_0_49792) shapeCasts_S32x128_S32x1x128 := by
  dsimp only [Gen.V, Gen.hostOps0]; after_results; rfl

/-- The array window 9 stages: columns 49920 … of the flat array, recast. -/
theorem V_main_v17 (c : Dev nD) : (V m c main_v17 : S32x3x128.Idx → EReal)
    = shapeCast S32x3x128 (extractStridedSlice S32x384 ![0, 49920] (m ((c : Thread nD τ).loc main_arg1)) slices_S32x50307_S32x384_0_49920) shapeCasts_S32x384_S32x3x128 := by
  dsimp only [Gen.V, Gen.hostOps0]; after_results; rfl

/-- The array window 10 stages: columns 50304 … of the flat array, recast. -/
theorem V_main_v19 (c : Dev nD) : (V m c main_v19 : S32x1x3.Idx → EReal)
    = shapeCast S32x1x3 (extractStridedSlice S32x3 ![0, 50304] (m ((c : Thread nD τ).loc main_arg1)) slices_S32x50307_S32x3_0_50304) shapeCasts_S32x3_S32x1x3 := by
  dsimp only [Gen.V, Gen.hostOps0]; after_results; rfl

end Cert.KernelIdeal.HostArrays

end
-- ==== Proof.Blocks.lean ====
/-
  From tiles to the whole array.

  The launch runs the body at the 64 points `(b, s)` of a 32 × 2 grid. At point `(b, s)` the coordinate window's block
  is rows `16384 s … 16384 s + 16383` of batch entry `b`, every weight and bias window's block is batch entry `b` of its
  array whole, and the output window's block is the same rows of batch entry `b` of the result. So what the point
  writes back is the block of `Cert.Siren.G` of the arrays as the launch finds them (the body on one tile is a block of
  `G`), every point writes back, and the 64 blocks tile the result: after the run the result array is `G`.
-/
import proofs.«109121_j16501264351966_2_alg».proof.Proof.Gen.KernelIdeal.Value
import proofs.«109121_j16501264351966_2_alg».proof.Proof.KernelRows
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The network on every row, of the eleven arrays as the launch finds them. -/
abbrev whole (c : Dev nD) : S32x32768x3.Idx → EReal :=
  Cert.Siren.G (V m c main_arg0) (V m c main_v1) (V m c main_v3) (V m c main_v5) (V m c main_v7) (V m c main_v9) (V m c main_v11) (V m c main_v13) (V m c main_v15) (V m c main_v17) (V m c main_v19)

/-! ## The index maps, decided over the 64 points -/

/-- At every point the coordinate window moves with the output window along the batch and the row-tile axes, every
    weight and bias window follows the batch axis only, and the output's block indices stay in their ranges. -/
theorem idx_facts : ∀ t : Fin cfg0.N,
    (win0_0.index t (0 : Fin 3) = win0_11.index t (0 : Fin 3) ∧ win0_0.index t (1 : Fin 3) = win0_11.index t (1 : Fin 3) ∧ win0_0.index t (2 : Fin 3) = 0)
    ∧ (win0_1.index t (0 : Fin 3) = win0_11.index t (0 : Fin 3) ∧ win0_1.index t (1 : Fin 3) = 0 ∧ win0_1.index t (2 : Fin 3) = 0)
    ∧ (win0_2.index t (0 : Fin 3) = win0_11.index t (0 : Fin 3) ∧ win0_2.index t (1 : Fin 3) = 0 ∧ win0_2.index t (2 : Fin 3) = 0)
    ∧ (win0_3.index t (0 : Fin 3) = win0_11.index t (0 : Fin 3) ∧ win0_3.index t (1 : Fin 3) = 0 ∧ win0_3.index t (2 : Fin 3) = 0)
    ∧ (win0_4.index t (0 : Fin 3) = win0_11.index t (0 : Fin 3) ∧ win0_4.index t (1 : Fin 3) = 0 ∧ win0_4.index t (2 : Fin 3) = 0)
    ∧ (win0_5.index t (0 : Fin 3) = win0_11.index t (0 : Fin 3) ∧ win0_5.index t (1 : Fin 3) = 0 ∧ win0_5.index t (2 : Fin 3) = 0)
    ∧ (win0_6.index t (0 : Fin 3) = win0_11.index t (0 : Fin 3) ∧ win0_6.index t (1 : Fin 3) = 0 ∧ win0_6.index t (2 : Fin 3) = 0)
    ∧ (win0_7.index t (0 : Fin 3) = win0_11.index t (0 : Fin 3) ∧ win0_7.index t (1 : Fin 3) = 0 ∧ win0_7.index t (2 : Fin 3) = 0)
    ∧ (win0_8.index t (0 : Fin 3) = win0_11.index t (0 : Fin 3) ∧ win0_8.index t (1 : Fin 3) = 0 ∧ win0_8.index t (2 : Fin 3) = 0)
    ∧ (win0_9.index t (0 : Fin 3) = win0_11.index t (0 : Fin 3) ∧ win0_9.index t (1 : Fin 3) = 0 ∧ win0_9.index t (2 : Fin 3) = 0)
    ∧ (win0_10.index t (0 : Fin 3) = win0_11.index t (0 : Fin 3) ∧ win0_10.index t (1 : Fin 3) = 0 ∧ win0_10.index t (2 : Fin 3) = 0)
    ∧ (win0_11.index t (0 : Fin 3) < 32 ∧ win0_11.index t (1 : Fin 3) < 2 ∧ win0_11.index t (2 : Fin 3) = 0) :=
  (by decide +kernel : ∀ t : Fin grid0.N, _)

/-- Every (batch entry, row tile) pair is some point's output block. -/
theorem idx_onto : ∀ (q0 : Fin 32) (q1 : Fin 2), ∃ t : Fin cfg0.N, win0_11.index t = ![q0.val, q1.val, 0] :=
  (by decide +kernel : ∀ (q0 : Fin 32) (q1 : Fin 2), ∃ t : Fin grid0.N, win0_11.index t = ![q0.val, q1.val, 0])

/-! ## Each input window's block, read off its array -/

/-- The coordinate window's block at point `t`: rows `n0 … n0 + 16383` of batch entry `bI`. -/
theorem iblk0_apply (c : Dev nD) (t : Fin cfg0.N) (bI : Fin 32) (n0 : ℕ)
    (e0 : win0_0.index t (0 : Fin 3) = bI.val) (e1 : win0_0.index t (1 : Fin 3) * 16384 = n0) (e2 : win0_0.index t (2 : Fin 3) = 0)
    (r : Fin 16384) (d : Fin 2) (hn : n0 + r.val < 32768) :
    (iblk m c 0 t : FVec Ideal S1x16384x2 .f32) (ix3 (0 : Fin 1) r d)
      = (V m c main_arg0 : S32x32768x2.Idx → EReal) (ix3 bI ⟨n0 + r.val, hn⟩ d) := by
  unfold iblk
  rw [View.read_apply]
  show (V m c main_arg0 : S32x32768x2.Idx → EReal) _ = (V m c main_arg0 : S32x32768x2.Idx → EReal) _
  congr 1
  funext a
  apply Fin.ext
  match a with
  | ⟨0, _⟩ => show win0_0.index t (0 : Fin 3) * 1 + 1 * 0 = bI.val; omega
  | ⟨1, _⟩ => show win0_0.index t (1 : Fin 3) * 16384 + 1 * r.val = n0 + r.val; rw [e1, Nat.one_mul]
  | ⟨2, _⟩ => show win0_0.index t (2 : Fin 3) * 2 + 1 * d.val = d.val; rw [e2, Nat.zero_mul, Nat.zero_add, Nat.one_mul]

/-- Window 1's block at point `t` is batch entry `bI` of its array, whole. -/
theorem iblk1_apply (c : Dev nD) (t : Fin cfg0.N) (bI : Fin 32)
    (e0 : win0_1.index t (0 : Fin 3) = bI.val) (e1 : win0_1.index t (1 : Fin 3) = 0) (e2 : win0_1.index t (2 : Fin 3) = 0)
    (q : Fin 128) (d : Fin 2) :
    (iblk m c 1 t : FVec Ideal S1x128x2 .f32) (ix3 (0 : Fin 1) q d)
      = (V m c main_v1 : S32x128x2.Idx → EReal) (ix3 bI q d) := by
  unfold iblk
  rw [View.read_apply]
  show (V m c main_v1 : S32x128x2.Idx → EReal) _ = (V m c main_v1 : S32x128x2.Idx → EReal) _
  congr 1
  funext a
  apply Fin.ext
  match a with
  | ⟨0, _⟩ => show win0_1.index t (0 : Fin 3) * 1 + 1 * 0 = bI.val; omega
  | ⟨1, _⟩ => show win0_1.index t (1 : Fin 3) * 128 + 1 * q.val = q.val; omega
  | ⟨2, _⟩ => show win0_1.index t (2 : Fin 3) * 2 + 1 * d.val = d.val; omega

/-- Window 2's block at point `t` is batch entry `bI` of its array, whole. -/
theorem iblk2_apply (c : Dev nD) (t : Fin cfg0.N) (bI : Fin 32)
    (e0 : win0_2.index t (0 : Fin 3) = bI.val) (e1 : win0_2.index t (1 : Fin 3) = 0) (e2 : win0_2.index t (2 : Fin 3) = 0)
    (q : Fin 1) (d : Fin 128) :
    (iblk m c 2 t : FVec Ideal S1x1x128 .f32) (ix3 (0 : Fin 1) q d)
      = (V m c main_v3 : S32x1x128.Idx → EReal) (ix3 bI q d) := by
  unfold iblk
  rw [View.read_apply]
  show (V m c main_v3 : S32x1x128.Idx → EReal) _ = (V m c main_v3 : S32x1x128.Idx → EReal) _
  congr 1
  funext a
  apply Fin.ext
  match a with
  | ⟨0, _⟩ => show win0_2.index t (0 : Fin 3) * 1 + 1 * 0 = bI.val; omega
  | ⟨1, _⟩ => show win0_2.index t (1 : Fin 3) * 1 + 1 * q.val = q.val; omega
  | ⟨2, _⟩ => show win0_2.index t (2 : Fin 3) * 128 + 1 * d.val = d.val; omega

/-- Window 3's block at point `t` is batch entry `bI` of its array, whole. -/
theorem iblk3_apply (c : Dev nD) (t : Fin cfg0.N) (bI : Fin 32)
    (e0 : win0_3.index t (0 : Fin 3) = bI.val) (e1 : win0_3.index t (1 : Fin 3) = 0) (e2 : win0_3.index t (2 : Fin 3) = 0)
    (q : Fin 128) (d : Fin 128) :
    (iblk m c 3 t : FVec Ideal S1x128x128 .f32) (ix3 (0 : Fin 1) q d)
      = (V m c main_v5 : S32x128x128.Idx → EReal) (ix3 bI q d) := by
  unfold iblk
  rw [View.read_apply]
  show (V m c main_v5 : S32x128x128.Idx → EReal) _ = (V m c main_v5 : S32x128x128.Idx → EReal) _
  congr 1
  funext a
  apply Fin.ext
  match a with
  | ⟨0, _⟩ => show win0_3.index t (0 : Fin 3) * 1 + 1 * 0 = bI.val; omega
  | ⟨1, _⟩ => show win0_3.index t (1 : Fin 3) * 128 + 1 * q.val = q.val; omega
  | ⟨2, _⟩ => show win0_3.index t (2 : Fin 3) * 128 + 1 * d.val = d.val; omega

/-- Window 4's block at point `t` is batch entry `bI` of its array, whole. -/
theorem iblk4_apply (c : Dev nD) (t : Fin cfg0.N) (bI : Fin 32)
    (e0 : win0_4.index t (0 : Fin 3) = bI.val) (e1 : win0_4.index t (1 : Fin 3) = 0) (e2 : win0_4.index t (2 : Fin 3) = 0)
    (q : Fin 1) (d : Fin 128) :
    (iblk m c 4 t : FVec Ideal S1x1x128 .f32) (ix3 (0 : Fin 1) q d)
      = (V m c main_v7 : S32x1x128.Idx → EReal) (ix3 bI q d) := by
  unfold iblk
  rw [View.read_apply]
  show (V m c main_v7 : S32x1x128.Idx → EReal) _ = (V m c main_v7 : S32x1x128.Idx → EReal) _
  congr 1
  funext a
  apply Fin.ext
  match a with
  | ⟨0, _⟩ => show win0_4.index t (0 : Fin 3) * 1 + 1 * 0 = bI.val; omega
  | ⟨1, _⟩ => show win0_4.index t (1 : Fin 3) * 1 + 1 * q.val = q.val; omega
  | ⟨2, _⟩ => show win0_4.index t (2 : Fin 3) * 128 + 1 * d.val = d.val; omega

/-- Window 5's block at point `t` is batch entry `bI` of its array, whole. -/
theorem iblk5_apply (c : Dev nD) (t : Fin cfg0.N) (bI : Fin 32)
    (e0 : win0_5.index t (0 : Fin 3) = bI.val) (e1 : win0_5.index t (1 : Fin 3) = 0) (e2 : win0_5.index t (2 : Fin 3) = 0)
    (q : Fin 128) (d : Fin 128) :
    (iblk m c 5 t : FVec Ideal S1x128x128 .f32) (ix3 (0 : Fin 1) q d)
      = (V m c main_v9 : S32x128x128.Idx → EReal) (ix3 bI q d) := by
  unfold iblk
  rw [View.read_apply]
  show (V m c main_v9 : S32x128x128.Idx → EReal) _ = (V m c main_v9 : S32x128x128.Idx → EReal) _
  congr 1
  funext a
  apply Fin.ext
  match a with
  | ⟨0, _⟩ => show win0_5.index t (0 : Fin 3) * 1 + 1 * 0 = bI.val; omega
  | ⟨1, _⟩ => show win0_5.index t (1 : Fin 3) * 128 + 1 * q.val = q.val; omega
  | ⟨2, _⟩ => show win0_5.index t (2 : Fin 3) * 128 + 1 * d.val = d.val; omega

/-- Window 6's block at point `t` is batch entry `bI` of its array, whole. -/
theorem iblk6_apply (c : Dev nD) (t : Fin cfg0.N) (bI : Fin 32)
    (e0 : win0_6.index t (0 : Fin 3) = bI.val) (e1 : win0_6.index t (1 : Fin 3) = 0) (e2 : win0_6.index t (2 : Fin 3) = 0)
    (q : Fin 1) (d : Fin 128) :
    (iblk m c 6 t : FVec Ideal S1x1x128 .f32) (ix3 (0 : Fin 1) q d)
      = (V m c main_v11 : S32x1x128.Idx → EReal) (ix3 bI q d) := by
  unfold iblk
  rw [View.read_apply]
  show (V m c main_v11 : S32x1x128.Idx → EReal) _ = (V m c main_v11 : S32x1x128.Idx → EReal) _
  congr 1
  funext a
  apply Fin.ext
  match a with
  | ⟨0, _⟩ => show win0_6.index t (0 : Fin 3) * 1 + 1 * 0 = bI.val; omega
  | ⟨1, _⟩ => show win0_6.index t (1 : Fin 3) * 1 + 1 * q.val = q.val; omega
  | ⟨2, _⟩ => show win0_6.index t (2 : Fin 3) * 128 + 1 * d.val = d.val; omega

/-- Window 7's block at point `t` is batch entry `bI` of its array, whole. -/
theorem iblk7_apply (c : Dev nD) (t : Fin cfg0.N) (bI : Fin 32)
    (e0 : win0_7.index t (0 : Fin 3) = bI.val) (e1 : win0_7.index t (1 : Fin 3) = 0) (e2 : win0_7.index t (2 : Fin 3) = 0)
    (q : Fin 128) (d : Fin 128) :
    (iblk m c 7 t : FVec Ideal S1x128x128 .f32) (ix3 (0 : Fin 1) q d)
      = (V m c main_v13 : S32x128x128.Idx → EReal) (ix3 bI q d) := by
  unfold iblk
  rw [View.read_apply]
  show (V m c main_v13 : S32x128x128.Idx → EReal) _ = (V m c main_v13 : S32x128x128.Idx → EReal) _
  congr 1
  funext a
  apply Fin.ext
  match a with
  | ⟨0, _⟩ => show win0_7.index t (0 : Fin 3) * 1 + 1 * 0 = bI.val; omega
  | ⟨1, _⟩ => show win0_7.index t (1 : Fin 3) * 128 + 1 * q.val = q.val; omega
  | ⟨2, _⟩ => show win0_7.index t (2 : Fin 3) * 128 + 1 * d.val = d.val; omega

/-- Window 8's block at point `t` is batch entry `bI` of its array, whole. -/
theorem iblk8_apply (c : Dev nD) (t : Fin cfg0.N) (bI : Fin 32)
    (e0 : win0_8.index t (0 : Fin 3) = bI.val) (e1 : win0_8.index t (1 : Fin 3) = 0) (e2 : win0_8.index t (2 : Fin 3) = 0)
    (q : Fin 1) (d : Fin 128) :
    (iblk m c 8 t : FVec Ideal S1x1x128 .f32) (ix3 (0 : Fin 1) q d)
      = (V m c main_v15 : S32x1x128.Idx → EReal) (ix3 bI q d) := by
  unfold iblk
  rw [View.read_apply]
  show (V m c main_v15 : S32x1x128.Idx → EReal) _ = (V m c main_v15 : S32x1x128.Idx → EReal) _
  congr 1
  funext a
  apply Fin.ext
  match a with
  | ⟨0, _⟩ => show win0_8.index t (0 : Fin 3) * 1 + 1 * 0 = bI.val; omega
  | ⟨1, _⟩ => show win0_8.index t (1 : Fin 3) * 1 + 1 * q.val = q.val; omega
  | ⟨2, _⟩ => show win0_8.index t (2 : Fin 3) * 128 + 1 * d.val = d.val; omega

/-- Window 9's block at point `t` is batch entry `bI` of its array, whole. -/
theorem iblk9_apply (c : Dev nD) (t : Fin cfg0.N) (bI : Fin 32)
    (e0 : win0_9.index t (0 : Fin 3) = bI.val) (e1 : win0_9.index t (1 : Fin 3) = 0) (e2 : win0_9.index t (2 : Fin 3) = 0)
    (q : Fin 3) (d : Fin 128) :
    (iblk m c 9 t : FVec Ideal S1x3x128 .f32) (ix3 (0 : Fin 1) q d)
      = (V m c main_v17 : S32x3x128.Idx → EReal) (ix3 bI q d) := by
  unfold iblk
  rw [View.read_apply]
  show (V m c main_v17 : S32x3x128.Idx → EReal) _ = (V m c main_v17 : S32x3x128.Idx → EReal) _
  congr 1
  funext a
  apply Fin.ext
  match a with
  | ⟨0, _⟩ => show win0_9.index t (0 : Fin 3) * 1 + 1 * 0 = bI.val; omega
  | ⟨1, _⟩ => show win0_9.index t (1 : Fin 3) * 3 + 1 * q.val = q.val; omega
  | ⟨2, _⟩ => show win0_9.index t (2 : Fin 3) * 128 + 1 * d.val = d.val; omega

/-- Window 10's block at point `t` is batch entry `bI` of its array, whole. -/
theorem iblk10_apply (c : Dev nD) (t : Fin cfg0.N) (bI : Fin 32)
    (e0 : win0_10.index t (0 : Fin 3) = bI.val) (e1 : win0_10.index t (1 : Fin 3) = 0) (e2 : win0_10.index t (2 : Fin 3) = 0)
    (q : Fin 1) (d : Fin 3) :
    (iblk m c 10 t : FVec Ideal S1x1x3 .f32) (ix3 (0 : Fin 1) q d)
      = (V m c main_v19 : S32x1x3.Idx → EReal) (ix3 bI q d) := by
  unfold iblk
  rw [View.read_apply]
  show (V m c main_v19 : S32x1x3.Idx → EReal) _ = (V m c main_v19 : S32x1x3.Idx → EReal) _
  congr 1
  funext a
  apply Fin.ext
  match a with
  | ⟨0, _⟩ => show win0_10.index t (0 : Fin 3) * 1 + 1 * 0 = bI.val; omega
  | ⟨1, _⟩ => show win0_10.index t (1 : Fin 3) * 1 + 1 * q.val = q.val; omega
  | ⟨2, _⟩ => show win0_10.index t (2 : Fin 3) * 3 + 1 * d.val = d.val; omega

/-! ## What a point writes back -/

/-- What point `t` writes back is block `t` of the network on every row. -/
theorem flushed_eq (c : Dev nD) (t : Fin cfg0.N) :
    (dats m 0 c).flushed 11 t = ((cfg0.win 11).blk t).view.read (Elt Ideal) (whole m c) := by
  rw [Cert.KernelIdeal.Value.flushed11]
  unfold out0_11
  rw [View.canon_unit_zero hz]
  simp only [View.ld_unit_zero (S := S1x16384x2) hz, View.ld_unit_zero (S := S1x128x2) hz, View.ld_unit_zero (S := S1x1x128) hz,
    View.ld_unit_zero (S := S1x128x128) hz, View.ld_unit_zero (S := S1x3x128) hz, View.ld_unit_zero (S := S1x1x3) hz]
  obtain ⟨⟨a0, a1, a2⟩, ⟨b1, c1, d1⟩, ⟨b2, c2, d2⟩, ⟨b3, c3, d3⟩, ⟨b4, c4, d4⟩, ⟨b5, c5, d5⟩, ⟨b6, c6, d6⟩, ⟨b7, c7, d7⟩, ⟨b8, c8, d8⟩, ⟨b9, c9, d9⟩, ⟨b10, c10, d10⟩, ⟨hb, hs, ho⟩⟩ := idx_facts t
  funext j
  have hj0 : (j 0).val < 1 := (j 0).isLt
  have hj1 : (j 1).val < 16384 := (j 1).isLt
  have hlt : win0_11.index t (1 : Fin 3) * 16384 + (j 1).val < 32768 := by omega
  have hemb : ((cfg0.win 11).blk t).view.emb j
      = ix3 (⟨win0_11.index t (0 : Fin 3), hb⟩ : Fin 32) (⟨win0_11.index t (1 : Fin 3) * 16384 + (j 1).val, hlt⟩ : Fin 32768) (⟨(j 2).val, (j 2).isLt⟩ : Fin 3) := by
    funext a
    apply Fin.ext
    match a with
    | ⟨0, _⟩ => show win0_11.index t (0 : Fin 3) * 1 + 1 * (j 0).val = win0_11.index t (0 : Fin 3); omega
    | ⟨1, _⟩ => show win0_11.index t (1 : Fin 3) * 16384 + 1 * (j 1).val = win0_11.index t (1 : Fin 3) * 16384 + (j 1).val; omega
    | ⟨2, _⟩ => show win0_11.index t (2 : Fin 3) * 3 + 1 * (j 2).val = (j 2).val; omega
  show k0_pay2 (F := Ideal) (k0_pay1 (F := Ideal) (iblk m c 0 t) (iblk m c 1 t) (iblk m c 2 t) (iblk m c 3 t) (iblk m c 4 t)) (iblk m c 5 t) (iblk m c 6 t) (iblk m c 7 t) (iblk m c 8 t) (iblk m c 9 t) (iblk m c 10 t) j
      = whole m c (((cfg0.win 11).blk t).view.emb j)
  rw [hemb]
  exact Cert.KernelIdeal.Rows.tile_apply (V m c main_arg0) (V m c main_v1) (V m c main_v3) (V m c main_v5) (V m c main_v7) (V m c main_v9) (V m c main_v11) (V m c main_v13) (V m c main_v15) (V m c main_v17) (V m c main_v19)
    (iblk m c 0 t) (iblk m c 1 t) (iblk m c 2 t) (iblk m c 3 t) (iblk m c 4 t) (iblk m c 5 t) (iblk m c 6 t) (iblk m c 7 t) (iblk m c 8 t) (iblk m c 9 t) (iblk m c 10 t)
    (⟨win0_11.index t (0 : Fin 3), hb⟩ : Fin 32) (win0_11.index t (1 : Fin 3) * 16384)
    (fun r d hn => iblk0_apply m c t _ _ a0 (by rw [a1]) a2 r d hn)
    (fun q d => iblk1_apply m c t _ b1 c1 d1 q d)
    (fun q d => iblk2_apply m c t _ b2 c2 d2 q d)
    (fun q d => iblk3_apply m c t _ b3 c3 d3 q d)
    (fun q d => iblk4_apply m c t _ b4 c4 d4 q d)
    (fun q d => iblk5_apply m c t _ b5 c5 d5 q d)
    (fun q d => iblk6_apply m c t _ b6 c6 d6 q d)
    (fun q d => iblk7_apply m c t _ b7 c7 d7 q d)
    (fun q d => iblk8_apply m c t _ b8 c8 d8 q d)
    (fun q d => iblk9_apply m c t _ b9 c9 d9 q d)
    (fun q d => iblk10_apply m c t _ b10 c10 d10 q d)
    j hlt

/-! ## The cover, and the array after the run -/

/-- An index of the result is in point `t`'s block iff each coordinate is in the block's range on its axis. -/
theorem mem_blk (t : Fin cfg0.N) (i : S32x32768x3.Idx) :
    i ∈ ((cfg0.win 11).blk t).view.set ↔ ∀ a : Fin 3, win0_11.index t a * S1x16384x3.size a ≤ (i a).val
      ∧ (i a).val < win0_11.index t a * S1x16384x3.size a + S1x16384x3.size a := by
  show i ∈ ((View.whole main_v20).slice (win0_11.rect t)).set ↔ _
  rw [View.set_slice_whole, Rect.mem_set_unit]
  exact Iff.rfl

/-- Every index of the result is in some point's block: batch entry `i 0`, row tile `i 1 / 16384`. -/
theorem cover (i : S32x32768x3.Idx) :
    ∃ t : Fin cfg0.N, (cfg0.win 11).flush t = true ∧ i ∈ ((cfg0.win 11).blk t).view.set := by
  have hi0 : (i 0).val < 32 := (i 0).isLt
  have hi1 : (i 1).val < 32768 := (i 1).isLt
  have hi2 : (i 2).val < 3 := (i 2).isLt
  obtain ⟨t, ht⟩ := idx_onto ⟨(i 0).val, hi0⟩ ⟨(i 1).val / 16384, by omega⟩
  have q0 : win0_11.index t (0 : Fin 3) = (i 0).val := congrFun ht 0
  have q1 : win0_11.index t (1 : Fin 3) = (i 1).val / 16384 := congrFun ht 1
  have q2 : win0_11.index t (2 : Fin 3) = 0 := congrFun ht 2
  refine ⟨t, flush0_11 t, ?_⟩
  rw [mem_blk]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 16384 ≤ (i 1).val ∧ (i 1).val < win0_11.index t (1 : Fin 3) * 16384 + 16384; omega
  | ⟨2, _⟩ => show win0_11.index t (2 : Fin 3) * 3 ≤ (i 2).val ∧ (i 2).val < win0_11.index t (2 : Fin 3) * 3 + 3; omega

/-- The result array after the run is the network on every row. -/
theorem final (c : Dev nD) : (dats m 0 c).arrAt 11 cfg0.N = whole m c :=
  (dats m 0 c).arrAt_eq_of_cover 11 (whole m c) (fun t _ => flushed_eq m c t) cover

/-- The run, read: the result array at the network on every row of the arrays as the launch finds them, the two
    argument arrays unchanged. -/
theorem run : θ_run defs (onTc (τ := τ) (main (F := Ideal))) ⟨m, fun _ => 0, ρ⟩ fun r => ∀ c : Dev nD,
      r.2.mem ((c : Thread nD τ).loc main_v20) = whole m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Blocks

end
-- ==== Proof.RefRows.lean ====
/-
  The reference, layer by layer, is the row function.

  The reference computes each layer on the whole batch at once: a batched product of the current `[32, 32768, K]`
  array with the layer's weights `[32, B, K]` contracting the last axes (entry `(b, n, o)` is the sum over `k` of the
  array at `(b, n, k)` times the weights at `(b, o, k)`), the layer's bias `[32, 1, B]` repeated over the points, and,
  after the first four layers, the product with the splat of thirty and the sine. So each layer's result at
  `(b, n, o)` is the layer of `Cert.Siren` applied to row `(b, n)` of the previous array with batch entry `b`'s
  weights, and the final result is `Cert.Siren.G` of the coordinates and the ten weight and bias arrays — which the
  reference cuts out of the flat parameter array, and which are left unopened here.
-/
import proofs.«109121_j16501264351966_2_alg».proof.Proof.Gen.ReferenceIdeal.Read
import proofs.«109121_j16501264351966_2_alg».proof.Proof.Siren

noncomputable section

namespace Cert.ReferenceIdeal.Rows

open Cert.ReferenceIdeal Cert.ReferenceIdeal.Read Idealize.ShloMosaic Idealize.ShloMosaic.ValueIdx

/-- The first layer's result at `(b, n, o)`: its contraction runs over the two coordinates. -/
theorem layer1_apply (x0 : (⟨S32x32768x2, .f32⟩ : BufTy).Contents (Elt Ideal)) (x1 : (⟨S32x50307, .f32⟩ : BufTy).Contents (Elt Ideal)) (b : Fin 32) (n : Fin 32768) (o : Fin 128) :
    val_main_v9 (F := Ideal) x0 x1 (ix3 b n o)
      = Cert.Siren.first (fun d => x0 (ix3 b n d))
          (fun q d => val_main_v1 (F := Ideal) x1 (ix3 b q d)) (fun q => val_main_v4 (F := Ideal) x1 (ix3 b (0 : Fin 1) q)) o := by
  rw [Cert.Siren.first_eq_hidden]
  have hl : ∀ k : Fin 2, lidx_main_v2 (ix3 b n o) k = ix3 b n k := fun k => funext fun a => Fin.ext (by
    match a with | ⟨0, _⟩ => rfl | ⟨1, _⟩ => rfl | ⟨2, _⟩ => rfl)
  have hr : ∀ k : Fin 2, ridx_main_v2 (ix3 b n o) k = ix3 b o k := fun k => funext fun a => Fin.ext (by
    match a with | ⟨0, _⟩ => rfl | ⟨1, _⟩ => rfl | ⟨2, _⟩ => rfl)
  have hb : idx_main_v5 (ix3 b n o) = ix3 b (0 : Fin 1) o := funext fun a => Fin.ext (by
    match a with | ⟨0, _⟩ => rfl | ⟨1, _⟩ => rfl | ⟨2, _⟩ => rfl)
  have e2 := val_main_v2_apply x0 x1 (ix3 b n o)
  simp only [hl, hr] at e2
  have e5 := val_main_v5_apply (F := Ideal) x1 (ix3 b n o)
  rw [hb] at e5
  show Ideal.sin (val_main_v7 (F := Ideal) (ix3 b n o)
    * (val_main_v2 (F := Ideal) x0 x1 (ix3 b n o) + val_main_v5 (F := Ideal) x1 (ix3 b n o))) = _
  rw [e2, e5, val_main_v7_apply]
  rfl

/-- The second layer's result at `(b, n, o)`, from the first's. -/
theorem layer2_apply (x0 : (⟨S32x32768x2, .f32⟩ : BufTy).Contents (Elt Ideal)) (x1 : (⟨S32x50307, .f32⟩ : BufTy).Contents (Elt Ideal)) (b : Fin 32) (n : Fin 32768) (o : Fin 128) :
    val_main_v19 (F := Ideal) x0 x1 (ix3 b n o)
      = Cert.Siren.hidden (fun k => val_main_v9 (F := Ideal) x0 x1 (ix3 b n k))
          (fun q k => val_main_v11 (F := Ideal) x1 (ix3 b q k)) (fun q => val_main_v14 (F := Ideal) x1 (ix3 b (0 : Fin 1) q)) o := by
  have hl : ∀ k : Fin 128, lidx_main_v12 (ix3 b n o) k = ix3 b n k := fun k => funext fun a => Fin.ext (by
    match a with | ⟨0, _⟩ => rfl | ⟨1, _⟩ => rfl | ⟨2, _⟩ => rfl)
  have hr : ∀ k : Fin 128, ridx_main_v12 (ix3 b n o) k = ix3 b o k := fun k => funext fun a => Fin.ext (by
    match a with | ⟨0, _⟩ => rfl | ⟨1, _⟩ => rfl | ⟨2, _⟩ => rfl)
  have hb : idx_main_v15 (ix3 b n o) = ix3 b (0 : Fin 1) o := funext fun a => Fin.ext (by
    match a with | ⟨0, _⟩ => rfl | ⟨1, _⟩ => rfl | ⟨2, _⟩ => rfl)
  have e2 := val_main_v12_apply x0 x1 (ix3 b n o)
  simp only [hl, hr] at e2
  have e5 := val_main_v15_apply (F := Ideal) x1 (ix3 b n o)
  rw [hb] at e5
  show Ideal.sin (val_main_v17 (F := Ideal) (ix3 b n o)
    * (val_main_v12 (F := Ideal) x0 x1 (ix3 b n o) + val_main_v15 (F := Ideal) x1 (ix3 b n o))) = _
  rw [e2, e5, val_main_v17_apply]
  rfl

/-- The third layer's result at `(b, n, o)`, from the second's. -/
theorem layer3_apply (x0 : (⟨S32x32768x2, .f32⟩ : BufTy).Contents (Elt Ideal)) (x1 : (⟨S32x50307, .f32⟩ : BufTy).Contents (Elt Ideal)) (b : Fin 32) (n : Fin 32768) (o : Fin 128) :
    val_main_v29 (F := Ideal) x0 x1 (ix3 b n o)
      = Cert.Siren.hidden (fun k => val_main_v19 (F := Ideal) x0 x1 (ix3 b n k))
          (fun q k => val_main_v21 (F := Ideal) x1 (ix3 b q k)) (fun q => val_main_v24 (F := Ideal) x1 (ix3 b (0 : Fin 1) q)) o := by
  have hl : ∀ k : Fin 128, lidx_main_v22 (ix3 b n o) k = ix3 b n k := fun k => funext fun a => Fin.ext (by
    match a with | ⟨0, _⟩ => rfl | ⟨1, _⟩ => rfl | ⟨2, _⟩ => rfl)
  have hr : ∀ k : Fin 128, ridx_main_v22 (ix3 b n o) k = ix3 b o k := fun k => funext fun a => Fin.ext (by
    match a with | ⟨0, _⟩ => rfl | ⟨1, _⟩ => rfl | ⟨2, _⟩ => rfl)
  have hb : idx_main_v25 (ix3 b n o) = ix3 b (0 : Fin 1) o := funext fun a => Fin.ext (by
    match a with | ⟨0, _⟩ => rfl | ⟨1, _⟩ => rfl | ⟨2, _⟩ => rfl)
  have e2 := val_main_v22_apply x0 x1 (ix3 b n o)
  simp only [hl, hr] at e2
  have e5 := val_main_v25_apply (F := Ideal) x1 (ix3 b n o)
  rw [hb] at e5
  show Ideal.sin (val_main_v27 (F := Ideal) (ix3 b n o)
    * (val_main_v22 (F := Ideal) x0 x1 (ix3 b n o) + val_main_v25 (F := Ideal) x1 (ix3 b n o))) = _
  rw [e2, e5, val_main_v27_apply]
  rfl

/-- The fourth layer's result at `(b, n, o)`, from the third's. -/
theorem layer4_apply (x0 : (⟨S32x32768x2, .f32⟩ : BufTy).Contents (Elt Ideal)) (x1 : (⟨S32x50307, .f32⟩ : BufTy).Contents (Elt Ideal)) (b : Fin 32) (n : Fin 32768) (o : Fin 128) :
    val_main_v39 (F := Ideal) x0 x1 (ix3 b n o)
      = Cert.Siren.hidden (fun k => val_main_v29 (F := Ideal) x0 x1 (ix3 b n k))
          (fun q k => val_main_v31 (F := Ideal) x1 (ix3 b q k)) (fun q => val_main_v34 (F := Ideal) x1 (ix3 b (0 : Fin 1) q)) o := by
  have hl : ∀ k : Fin 128, lidx_main_v32 (ix3 b n o) k = ix3 b n k := fun k => funext fun a => Fin.ext (by
    match a with | ⟨0, _⟩ => rfl | ⟨1, _⟩ => rfl | ⟨2, _⟩ => rfl)
  have hr : ∀ k : Fin 128, ridx_main_v32 (ix3 b n o) k = ix3 b o k := fun k => funext fun a => Fin.ext (by
    match a with | ⟨0, _⟩ => rfl | ⟨1, _⟩ => rfl | ⟨2, _⟩ => rfl)
  have hb : idx_main_v35 (ix3 b n o) = ix3 b (0 : Fin 1) o := funext fun a => Fin.ext (by
    match a with | ⟨0, _⟩ => rfl | ⟨1, _⟩ => rfl | ⟨2, _⟩ => rfl)
  have e2 := val_main_v32_apply x0 x1 (ix3 b n o)
  simp only [hl, hr] at e2
  have e5 := val_main_v35_apply (F := Ideal) x1 (ix3 b n o)
  rw [hb] at e5
  show Ideal.sin (val_main_v37 (F := Ideal) (ix3 b n o)
    * (val_main_v32 (F := Ideal) x0 x1 (ix3 b n o) + val_main_v35 (F := Ideal) x1 (ix3 b n o))) = _
  rw [e2, e5, val_main_v37_apply]
  rfl

/-- The last layer's result at `(b, n, o)`, from the fourth's: no sine after it. -/
theorem layer5_apply (x0 : (⟨S32x32768x2, .f32⟩ : BufTy).Contents (Elt Ideal)) (x1 : (⟨S32x50307, .f32⟩ : BufTy).Contents (Elt Ideal)) (b : Fin 32) (n : Fin 32768) (o : Fin 3) :
    val_main_v46 (F := Ideal) x0 x1 (ix3 b n o)
      = Cert.Siren.dense (fun k => val_main_v39 (F := Ideal) x0 x1 (ix3 b n k))
          (fun q k => val_main_v41 (F := Ideal) x1 (ix3 b q k)) (fun q => val_main_v44 (F := Ideal) x1 (ix3 b (0 : Fin 1) q)) o := by
  have hl : ∀ k : Fin 128, lidx_main_v42 (ix3 b n o) k = ix3 b n k := fun k => funext fun a => Fin.ext (by
    match a with | ⟨0, _⟩ => rfl | ⟨1, _⟩ => rfl | ⟨2, _⟩ => rfl)
  have hr : ∀ k : Fin 128, ridx_main_v42 (ix3 b n o) k = ix3 b o k := fun k => funext fun a => Fin.ext (by
    match a with | ⟨0, _⟩ => rfl | ⟨1, _⟩ => rfl | ⟨2, _⟩ => rfl)
  have hb : idx_main_v45 (ix3 b n o) = ix3 b (0 : Fin 1) o := funext fun a => Fin.ext (by
    match a with | ⟨0, _⟩ => rfl | ⟨1, _⟩ => rfl | ⟨2, _⟩ => rfl)
  have e2 := val_main_v42_apply x0 x1 (ix3 b n o)
  simp only [hl, hr] at e2
  have e5 := val_main_v45_apply (F := Ideal) x1 (ix3 b n o)
  rw [hb] at e5
  show val_main_v42 (F := Ideal) x0 x1 (ix3 b n o) + val_main_v45 (F := Ideal) x1 (ix3 b n o) = _
  rw [e2, e5]
  rfl

/-- The reference's result is the network on every row, of the coordinates and the ten arrays cut out of the flat
    parameter array. -/
theorem result_eq (x0 : (⟨S32x32768x2, .f32⟩ : BufTy).Contents (Elt Ideal)) (x1 : (⟨S32x50307, .f32⟩ : BufTy).Contents (Elt Ideal)) :
    val_main_v46 (F := Ideal) x0 x1
      = Cert.Siren.G x0 (val_main_v1 (F := Ideal) x1) (val_main_v4 (F := Ideal) x1) (val_main_v11 (F := Ideal) x1) (val_main_v14 (F := Ideal) x1)
          (val_main_v21 (F := Ideal) x1) (val_main_v24 (F := Ideal) x1) (val_main_v31 (F := Ideal) x1) (val_main_v34 (F := Ideal) x1)
          (val_main_v41 (F := Ideal) x1) (val_main_v44 (F := Ideal) x1) := by
  funext i
  obtain ⟨b, n, j, rfl⟩ : ∃ (b : Fin 32) (n : Fin 32768) (j : Fin 3), i = ix3 b n j := ⟨i 0, i 1, i 2, eq_ix3 i⟩
  rw [Cert.Siren.G_apply, layer5_apply]
  unfold Cert.Siren.net
  refine congrArg (fun h => Cert.Siren.dense h _ _ j) (funext fun k4 => ?_)
  rw [layer4_apply]
  refine congrArg (fun h => Cert.Siren.hidden h _ _ k4) (funext fun k3 => ?_)
  rw [layer3_apply]
  refine congrArg (fun h => Cert.Siren.hidden h _ _ k3) (funext fun k2 => ?_)
  rw [layer2_apply]
  refine congrArg (fun h => Cert.Siren.hidden h _ _ k2) (funext fun k1 => ?_)
  exact layer1_apply x0 x1 b n k1

end Cert.ReferenceIdeal.Rows

end
-- ==== Proof.lean ====
/-
  A sine network computed tile by tile equals the same network computed layer by layer on the whole batch.

  Both programs take a batch of 32 point sets, 32768 points of two coordinates each, and for each batch entry a flat row
  of 50307 parameters, cut into the weights and biases of five dense layers 2 → 128 → 128 → 128 → 128 → 3, the weights
  one output per row; after each of the first four layers every entry `z` becomes `sin (30 · z)`.

  The kernel cuts the ten weight and bias arrays out of the flat array first and then runs 64 tiles, one per batch
  entry and half of its points: a tile computes all five layers on its 16384 rows, the first layer as two products of a
  coordinate column with a weight column, the middle layers as products with the transposed weights after a change of
  float format. The reference cuts the same columns the same way and computes each layer on the whole batch as one batched
  product. On the extended reals a change of float format is the identity and every product is the plain sum of
  products, so both compute, at batch entry `b`, point `n` and output `j`, the row function `Cert.Siren.net` of the
  coordinates of point `n` and batch entry `b`'s weights: `Cert.Siren.G`. The first layer's two-term sum against the
  reference's sum over two indices is the only rearrangement; nothing here needs the inputs to be finite.

  The kernel's side: `KernelRows` (a tile is a block of `G`), `HostArrays` (the cut arrays as the launch finds them),
  `Blocks` (the 64 blocks tile the result). The reference's side: `RefRows`. The two word-level and ideal frames of the
  kernel are the generated ones; the reference's frame is its generated run with the result dropped; the ideal pass
  rewrote nothing, so there is nothing to preserve.
-/
import proofs.«109121_j16501264351966_2_alg».proof.Defs
import proofs.«109121_j16501264351966_2_alg».proof.Proof.Gen.Kernel
import proofs.«109121_j16501264351966_2_alg».proof.Proof.Gen.Kernel.Skeleton
import proofs.«109121_j16501264351966_2_alg».proof.Proof.Gen.Kernel.Launch
import proofs.«109121_j16501264351966_2_alg».proof.Proof.Gen.Kernel.Points
import proofs.«109121_j16501264351966_2_alg».proof.Proof.Gen.Kernel.Frame
import proofs.«109121_j16501264351966_2_alg».proof.Proof.Gen.KernelIdeal
import proofs.«109121_j16501264351966_2_alg».proof.Proof.Gen.KernelIdeal.Skeleton
import proofs.«109121_j16501264351966_2_alg».proof.Proof.Gen.KernelIdeal.Launch
import proofs.«109121_j16501264351966_2_alg».proof.Proof.Gen.KernelIdeal.Points
import proofs.«109121_j16501264351966_2_alg».proof.Proof.Gen.KernelIdeal.Frame
import proofs.«109121_j16501264351966_2_alg».proof.Proof.Gen.ReferenceIdeal
import proofs.«109121_j16501264351966_2_alg».proof.Proof.Gen.KernelIdeal.Value
import proofs.«109121_j16501264351966_2_alg».proof.Proof.Gen.ReferenceIdeal.Run
import proofs.«109121_j16501264351966_2_alg».proof.Proof.Gen.ReferenceIdeal.Read
import proofs.«109121_j16501264351966_2_alg».proof.Proof.Gen.Pre_finite_inputs
import Idealize.ShloMosaic.Adequacy
import Idealize.ShloMosaic.Init
import proofs.«109121_j16501264351966_2_alg».proof.Proof.Siren
import proofs.«109121_j16501264351966_2_alg».proof.Proof.KernelRows
import proofs.«109121_j16501264351966_2_alg».proof.Proof.HostArrays
import proofs.«109121_j16501264351966_2_alg».proof.Proof.Blocks
import proofs.«109121_j16501264351966_2_alg».proof.Proof.RefRows

noncomputable section

namespace Cert.Proof

open Idealize.ShloMosaic Idealize.ShloMosaic.TcCoe Idealize.SL.Sem

/-- The kernel as printed runs and leaves its arguments unchanged. -/
theorem frame_kernel [Cert.Kernel.Facts] [Cert.Pre_finite_inputs.Facts] : Cert.frame_Kernel :=
  fun m ρ _ => Cert.Kernel.Gen.frame m ρ

/-- The idealized kernel runs and leaves its arguments unchanged. -/
theorem frame_kernelIdeal [Cert.KernelIdeal.Facts] [Cert.Pre_finite_inputs.Facts] : Cert.frame_KernelIdeal :=
  fun m ρ _ => Cert.KernelIdeal.Gen.frame m ρ

/-- The idealized reference runs and leaves its arguments unchanged: its run, the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the coordinates and the flat parameters, the idealized kernel's result array and the
    idealized reference's both end at the network on every row: the kernel's of the arrays it cut before the launch, the
    reference's of the arrays it cuts layer by layer, which are the same cuts of the same flat array. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Blocks.whole m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.ReferenceIdeal.Rows.result_eq, (hagree c).1, (hagree c).2]
  dsimp only [Cert.KernelIdeal.Blocks.whole]
  rw [Cert.KernelIdeal.Gen.V_main_arg0 m c,
    Cert.KernelIdeal.HostArrays.V_main_v1 m c,
    Cert.KernelIdeal.HostArrays.V_main_v3 m c,
    Cert.KernelIdeal.HostArrays.V_main_v5 m c,
    Cert.KernelIdeal.HostArrays.V_main_v7 m c,
    Cert.KernelIdeal.HostArrays.V_main_v9 m c,
    Cert.KernelIdeal.HostArrays.V_main_v11 m c,
    Cert.KernelIdeal.HostArrays.V_main_v13 m c,
    Cert.KernelIdeal.HostArrays.V_main_v15 m c,
    Cert.KernelIdeal.HostArrays.V_main_v17 m c,
    Cert.KernelIdeal.HostArrays.V_main_v19 m c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
